-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x64 : Shape := ⟨3, ![64, 4096, 64]⟩
abbrev S64x32 : Shape := ⟨2, ![64, 32]⟩
abbrev S64x64x64 : Shape := ⟨3, ![64, 64, 64]⟩
abbrev S32x64 : Shape := ⟨2, ![32, 64]⟩
abbrev S64x64 : Shape := ⟨2, ![64, 64]⟩
abbrev S1x64 : Shape := ⟨2, ![1, 64]⟩
abbrev S1 : Shape := ⟨1, ![1]⟩
abbrev S_ : Shape := ⟨0, ![]⟩

class Facts : Prop where
  bcast_S_S64x4096x64 : S_.BroadcastsInDim S64x4096x64 (![] : Fin 0 → Fin S64x4096x64.rank)
  reducesTo_S64x4096x64_S_d0_1_2 : S64x4096x64.ReducesTo [0, 1, 2] S_
  h_S_ : 0 < S_.numel
  bcast_S_S64x32 : S_.BroadcastsInDim S64x32 (![] : Fin 0 → Fin S64x32.rank)
  reducesTo_S64x32_S_d0_1 : S64x32.ReducesTo [0, 1] S_
  bcast_S_S64x64x64 : S_.BroadcastsInDim S64x64x64 (![] : Fin 0 → Fin S64x64x64.rank)
  reducesTo_S64x64x64_S_d0_1_2 : S64x64x64.ReducesTo [0, 1, 2] S_
  bcast_S_S32x64 : S_.BroadcastsInDim S32x64 (![] : Fin 0 → Fin S32x64.rank)
  reducesTo_S32x64_S_d0_1 : S32x64.ReducesTo [0, 1] S_
  bcast_S_S64x64 : S_.BroadcastsInDim S64x64 (![] : Fin 0 → Fin S64x64.rank)
  reducesTo_S64x64_S_d0_1 : S64x64.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S64x64 .f32) (main_arg5 : FVec F S1x64 .f32) (main_arg6 : FVec F S1 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S1x64 .f32 := Host.absf main_arg5
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S64x4096x64 .f32) (main_arg1 : FVec F S64x32 .f32) (main_arg2 : FVec F S64x64x64 .f32) (main_arg3 : FVec F S32x64 .f32) (main_arg4 : FVec F S64x64 .f32) (main_arg5 : FVec F S1x64 .f32) (main_arg6 : FVec F S1 .f32) : IVec S_ 1 :=
  let main_v0 : FVec F S64x4096x64 .f32 := Host.absf main_arg0
  let main_cst : FVec F S_ .f32 := constant S_ .f32 0x7F800000#32
  let main_v1 : FVec F S64x4096x64 .f32 := broadcastInDim S64x4096x64 ![] bcast_S_S64x4096x64 main_cst
  let main_v2 : IVec S64x4096x64 1 := cmpf .olt main_v0 main_v1
  let main_c : IVec S_ 1 := constantI S_ 1 1#1
  let main_v3 : IVec S_ 1 := (fun x v => Host.reduce IntOp.andi x v reducesTo_S64x4096x64_S_d0_1_2 h_S_) main_v2 main_c
  let main_v4 : FVec F S64x32 .f32 := Host.absf main_arg1
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S64x64x64 .f32 := Host.absf main_arg2
  let main_cst_2 : FVec F S_ .f32 := constant S_ .f32 0x7F800000#32
  let main_v10 : FVec F S64x64x64 .f32 := broadcastInDim S64x64x64 ![] bcast_S_S64x64x64 main_cst_2
  let main_v11 : IVec S64x64x64 1 := cmpf .olt main_v9 main_v10
  let main_c_3 : IVec S_ 1 := constantI S_ 1 1#1
  let main_v12 : IVec S_ 1 := (fun x v => Host.reduce IntOp.andi x v reducesTo_S64x64x64_S_d0_1_2 h_S_) main_v11 main_c_3
  let main_v13 : IVec S_ 1 := andi main_v8 main_v12
  let main_v14 : FVec F S32x64 .f32 := Host.absf main_arg3
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg4 main_arg5 main_arg6 main_v13 main_v16
-- ==== Kernel.lean ====
abbrev S64x4096x64 : Shape := ⟨3, ![64, 4096, 64]⟩
abbrev S64x32 : Shape := ⟨2, ![64, 32]⟩
abbrev S64x64x64 : Shape := ⟨3, ![64, 64, 64]⟩
abbrev S32x64 : Shape := ⟨2, ![32, 64]⟩
abbrev S64x64 : Shape := ⟨2, ![64, 64]⟩
abbrev S1x64 : Shape := ⟨2, ![1, 64]⟩
abbrev S1 : Shape := ⟨1, ![1]⟩
abbrev S_ : Shape := ⟨0, ![]⟩
abbrev S64 : Shape := ⟨1, ![64]⟩
abbrev S64x1 : Shape := ⟨2, ![64, 1]⟩
abbrev S1x1 : Shape := ⟨2, ![1, 1]⟩
abbrev S1x4096x64 : Shape := ⟨3, ![1, 4096, 64]⟩
abbrev S1x64x64 : Shape := ⟨3, ![1, 64, 64]⟩
abbrev S4096x64 : Shape := ⟨2, ![4096, 64]⟩
abbrev S4096x32 : Shape := ⟨2, ![4096, 32]⟩
abbrev S4096 : Shape := ⟨1, ![4096]⟩
abbrev S4096x1 : Shape := ⟨2, ![4096, 1]⟩

abbrev nBuf : Space → Nat
  | .hbm => 19
  | .vmem => 11
  | .smem => 0
  | _ => 0

abbrev bufTy : (tb : Table) → Fin (tcTables nBuf tb) → BufTy
  | .hbm, ⟨0, _⟩ => ⟨S64x4096x64, .f32⟩
  | .hbm, ⟨1, _⟩ => ⟨S64x32, .f32⟩
  | .hbm, ⟨2, _⟩ => ⟨S64x64x64, .f32⟩
  | .hbm, ⟨3, _⟩ => ⟨S32x64, .f32⟩
  | .hbm, ⟨4, _⟩ => ⟨S64x64, .f32⟩
  | .hbm, ⟨5, _⟩ => ⟨S1x64, .f32⟩
  | .hbm, ⟨6, _⟩ => ⟨S1, .f32⟩
  | .hbm, ⟨7, _⟩ => ⟨S64x32, .f32⟩
  | .hbm, ⟨8, _⟩ => ⟨S_, .f32⟩
  | .hbm, ⟨9, _⟩ => ⟨S64, .f32⟩
  | .hbm, ⟨10, _⟩ => ⟨S64x1, .f32⟩
  | .hbm, ⟨11, _⟩ => ⟨S64x1, .f32⟩
  | .hbm, ⟨12, _⟩ => ⟨S_, .f32⟩
  | .hbm, ⟨13, _⟩ => ⟨S64x1, .f32⟩
  | .hbm, ⟨14, _⟩ => ⟨S64x1, .f32⟩
  | .hbm, ⟨15, _⟩ => ⟨S64x32, .f32⟩
  | .hbm, ⟨16, _⟩ => ⟨S64x32, .f32⟩
  | .hbm, ⟨17, _⟩ => ⟨S1x1, .f32⟩
  | .hbm, ⟨18, _⟩ => ⟨S64x64x64, .f32⟩
  | .local _ .vmem, ⟨0, _⟩ => ⟨S1x4096x64, .f32⟩
  | .local _ .vmem, ⟨1, _⟩ => ⟨S1x4096x64, .f32⟩
  | .local _ .vmem, ⟨2, _⟩ => ⟨S1x64x64, .f32⟩
  | .local _ .vmem, ⟨3, _⟩ => ⟨S1x64x64, .f32⟩
  | .local _ .vmem, ⟨4, _⟩ => ⟨S64x32, .f32⟩
  | .local _ .vmem, ⟨5, _⟩ => ⟨S32x64, .f32⟩
  | .local _ .vmem, ⟨6, _⟩ => ⟨S64x64, .f32⟩
  | .local _ .vmem, ⟨7, _⟩ => ⟨S1x64, .f32⟩
  | .local _ .vmem, ⟨8, _⟩ => ⟨S1x1, .f32⟩
  | .local _ .vmem, ⟨9, _⟩ => ⟨S1x64x64, .f32⟩
  | .local _ .vmem, ⟨10, _⟩ => ⟨S1x64x64, .f32⟩
  | _, _ => ⟨S64x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x64x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  reducesTo_S64x32_S64_d1 : S64x32.ReducesTo [1] S64
  h_S_ : 0 < S_.numel
  bcast_S64_S64x1_0 : S64.BroadcastsInDim S64x1 (![0] : Fin 1 → Fin S64x1.rank)
  bcast_S_S64x1 : S_.BroadcastsInDim S64x1 (![] : Fin 0 → Fin S64x1.rank)
  bcast_S64x1_S64x32_0_1 : S64x1.BroadcastsInDim S64x32 (![0, 1] : Fin 2 → Fin S64x32.rank)
  shapeCasts_S1_S1x1 : S1.ShapeCasts S1x1
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  inb_S64x32_S64x32_0_0 : ∀ a, (![0, 0] : Fin 2 → Nat) a + S64x32.size a ≤ S64x32.size a
  h_S64x32 : 0 < S64x32.numel
  shapeCasts_S64x32_S64x32 : S64x32.ShapeCasts S64x32
  transposes_S32x64_p1_0_S64x32 : S32x64.Transposes [1, 0] S64x32
  reduces_S4096x32_S4096 : S4096x32.Reduces [1] S4096
  shapeCasts_S4096_S4096x1 : S4096.ShapeCasts S4096x1
  broadcasts_S4096x1_S4096x32 : S4096x1.Broadcasts S4096x32
  transposes_S64x32_p1_0_S32x64 : S64x32.Transposes [1, 0] S32x64
  reduces_S4096x64_S4096 : S4096x64.Reduces [1] S4096
  broadcasts_S4096x1_S4096x64 : S4096x1.Broadcasts S4096x64
  transposes_S1x64_p1_0_S64x1 : S1x64.Transposes [1, 0] S64x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  transposes_S64x64_p1_0_S64x64 : S64x64.Transposes [1, 0] S64x64
  reduces_S4096x64_S64 : S4096x64.Reduces [0] S64
  shapeCasts_S64_S1x64 : S64.ShapeCasts S1x64
  broadcasts_S64x1_S64x64 : S64x1.Broadcasts S64x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S64x64_S1x64x64 : S64x64.ShapeCasts S1x64x64
  dot_S4096x64_S64x32_S4096x32_1_0_0_1_n_n_wf : DotDims.WF S4096x64 S64x32 S4096x32 [1] [0] [0] [1] [] []
  dot_S4096x32_S32x64_S4096x64_1_0_0_1_n_n_wf : DotDims.WF S4096x32 S32x64 S4096x64 [1] [0] [0] [1] [] []
  dot_S4096x64_S64x1_S4096x1_1_0_0_1_n_n_wf : DotDims.WF S4096x64 S64x1 S4096x1 [1] [0] [0] [1] [] []
  dot_S4096x64_S64x64_S4096x64_1_0_0_1_n_n_wf : DotDims.WF S4096x64 S64x64 S4096x64 [1] [0] [0] [1] [] []
  dot_S4096x64_S4096x64_S64x64_0_0_1_1_n_n_wf : DotDims.WF S4096x64 S4096x64 S64x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x64.size a ≤ S64x4096x64.size a
  hwx0_0 : ∀ i : grid0.Coords, EltTy.bits .f32 = 32 ∨ (Rect.block (s := S64x4096x64) S1x4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S64x64x64.size a
  hwx0_1 : ∀ i : grid0.Coords, EltTy.bits .f32 = 32 ∨ (Rect.block (s := S64x64x64) S1x64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x32.size a ≤ S64x32.size a
  hwx0_2 : ∀ i : grid0.Coords, EltTy.bits .f32 = 32 ∨ (Rect.block (s := S64x32) S64x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x64x64.size a ≤ S64x64x64.size a
  hwx0_7 : ∀ i : grid0.Coords, EltTy.bits .f32 = 32 ∨ (Rect.block (s := S64x64x64) S1x64x64.size (cc0_transform_7 i) (hinb0_7 i)).WholeWords (EltTy.packing .f32)

variable [Facts₀]

def dot_S4096x64_S64x32_S4096x32_1_0_0_1_n_n : DotDims S4096x64 S64x32 S4096x32 where
  lhsContracting := [1]
  rhsContracting := [0]
  lhsNonContracting := [0]
  rhsNonContracting := [1]
  lhsBatch := []
  rhsBatch := []
  wf := dot_S4096x64_S64x32_S4096x32_1_0_0_1_n_n_wf
def dot_S4096x32_S32x64_S4096x64_1_0_0_1_n_n : DotDims S4096x32 S32x64 S4096x64 where
  lhsContracting := [1]
  rhsContracting := [0]
  lhsNonContracting := [0]
  rhsNonContracting := [1]
  lhsBatch := []
  rhsBatch := []
  wf := dot_S4096x32_S32x64_S4096x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x64_S4096x64_S64x64_0_0_1_1_n_n : DotDims S4096x64 S4096x64 S64x64 where
  lhsContracting := [0]
  rhsContracting := [0]
  lhsNonContracting := [1]
  rhsNonContracting := [1]
  lhsBatch := []
  rhsBatch := []
  wf := dot_S4096x64_S4096x64_S64x64_0_0_1_1_n_n_wf

abbrev win0_0 : Pipeline.Window sig grid0 :=
  Pipeline.Window.ofSpec (Memref.whole main_arg0) S1x4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S64x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x64x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x4096x64 : Shape := ⟨3, ![64, 4096, 64]⟩
abbrev S64x32 : Shape := ⟨2, ![64, 32]⟩
abbrev S64x64x64 : Shape := ⟨3, ![64, 64, 64]⟩
abbrev S32x64 : Shape := ⟨2, ![32, 64]⟩
abbrev S64x64 : Shape := ⟨2, ![64, 64]⟩
abbrev S1x64 : Shape := ⟨2, ![1, 64]⟩
abbrev S1 : Shape := ⟨1, ![1]⟩
abbrev S64x4096x32 : Shape := ⟨3, ![64, 4096, 32]⟩
abbrev S_ : Shape := ⟨0, ![]⟩
abbrev S64x4096 : Shape := ⟨2, ![64, 4096]⟩
abbrev S64x4096x1 : Shape := ⟨3, ![64, 4096, 1]⟩
abbrev S64 : Shape := ⟨1, ![64]⟩
abbrev S64x1 : Shape := ⟨2, ![64, 1]⟩
abbrev S1x1x1 : Shape := ⟨3, ![1, 1, 1]⟩
abbrev S64x64x1 : Shape := ⟨3, ![64, 64, 1]⟩

abbrev nBuf : Space → Nat
  | .hbm => 84
  | .vmem => 0
  | .smem => 0
  | _ => 0

abbrev bufTy : (tb : Table) → Fin (tcTables nBuf tb) → BufTy
  | .hbm, ⟨0, _⟩ => ⟨S64x4096x64, .f32⟩
  | .hbm, ⟨1, _⟩ => ⟨S64x32, .f32⟩
  | .hbm, ⟨2, _⟩ => ⟨S64x64x64, .f32⟩
  | .hbm, ⟨3, _⟩ => ⟨S32x64, .f32⟩
  | .hbm, ⟨4, _⟩ => ⟨S64x64, .f32⟩
  | .hbm, ⟨5, _⟩ => ⟨S1x64, .f32⟩
  | .hbm, ⟨6, _⟩ => ⟨S1, .f32⟩
  | .hbm, ⟨7, _⟩ => ⟨S64x4096x32, .f32⟩
  | .hbm, ⟨8, _⟩ => ⟨S64x4096x32, .f32⟩
  | .hbm, ⟨9, _⟩ => ⟨S_, .f32⟩
  | .hbm, ⟨10, _⟩ => ⟨S64x4096, .f32⟩
  | .hbm, ⟨11, _⟩ => ⟨S64x4096x1, .f32⟩
  | .hbm, ⟨12, _⟩ => ⟨S64x4096x1, .f32⟩
  | .hbm, ⟨13, _⟩ => ⟨S_, .f32⟩
  | .hbm, ⟨14, _⟩ => ⟨S64x4096x1, .f32⟩
  | .hbm, ⟨15, _⟩ => ⟨S64x4096x1, .f32⟩
  | .hbm, ⟨16, _⟩ => ⟨S64x4096x32, .f32⟩
  | .hbm, ⟨17, _⟩ => ⟨S64x4096x32, .f32⟩
  | .hbm, ⟨18, _⟩ => ⟨S64x32, .f32⟩
  | .hbm, ⟨19, _⟩ => ⟨S_, .f32⟩
  | .hbm, ⟨20, _⟩ => ⟨S64, .f32⟩
  | .hbm, ⟨21, _⟩ => ⟨S64x1, .f32⟩
  | .hbm, ⟨22, _⟩ => ⟨S64x1, .f32⟩
  | .hbm, ⟨23, _⟩ => ⟨S_, .f32⟩
  | .hbm, ⟨24, _⟩ => ⟨S64x1, .f32⟩
  | .hbm, ⟨25, _⟩ => ⟨S64x1, .f32⟩
  | .hbm, ⟨26, _⟩ => ⟨S64x32, .f32⟩
  | .hbm, ⟨27, _⟩ => ⟨S64x32, .f32⟩
  | .hbm, ⟨28, _⟩ => ⟨S64x4096x64, .f32⟩
  | .hbm, ⟨29, _⟩ => ⟨S_, .f32⟩
  | .hbm, ⟨30, _⟩ => ⟨S64x4096x64, .f32⟩
  | .hbm, ⟨31, _⟩ => ⟨S64x4096x64, .f32⟩
  | .hbm, ⟨32, _⟩ => ⟨S_, .f32⟩
  | .hbm, ⟨33, _⟩ => ⟨S64x4096, .f32⟩
  | .hbm, ⟨34, _⟩ => ⟨S_, .f32⟩
  | .hbm, ⟨35, _⟩ => ⟨S64x4096, .f32⟩
  | .hbm, ⟨36, _⟩ => ⟨S64x4096, .f32⟩
  | .hbm, ⟨37, _⟩ => ⟨S64x4096x1, .f32⟩
  | .hbm, ⟨38, _⟩ => ⟨S64x4096x64, .f32⟩
  | .hbm, ⟨39, _⟩ => ⟨S64x4096x64, .f32⟩
  | .hbm, ⟨40, _⟩ => ⟨S64x4096x64, .f32⟩
  | .hbm, ⟨41, _⟩ => ⟨S_, .f32⟩
  | .hbm, ⟨42, _⟩ => ⟨S64x4096, .f32⟩
  | .hbm, ⟨43, _⟩ => ⟨S64x4096x1, .f32⟩
  | .hbm, ⟨44, _⟩ => ⟨S64x4096x64, .f32⟩
  | .hbm, ⟨45, _⟩ => ⟨S64x4096x64, .f32⟩
  | .hbm, ⟨46, _⟩ => ⟨S64x4096x1, .f32⟩
  | .hbm, ⟨47, _⟩ => ⟨S1x1x1, .f32⟩
  | .hbm, ⟨48, _⟩ => ⟨S64x4096x1, .f32⟩
  | .hbm, ⟨49, _⟩ => ⟨S64x4096x1, .f32⟩
  | .hbm, ⟨50, _⟩ => ⟨S64x4096x1, .f32⟩
  | .hbm, ⟨51, _⟩ => ⟨S64x4096x1, .f32⟩
  | .hbm, ⟨52, _⟩ => ⟨S_, .f32⟩
  | .hbm, ⟨53, _⟩ => ⟨S64x4096x1, .f32⟩
  | .hbm, ⟨54, _⟩ => ⟨S64x4096x1, .f32⟩
  | .hbm, ⟨55, _⟩ => ⟨S_, .f32⟩
  | .hbm, ⟨56, _⟩ => ⟨S64x4096x1, .f32⟩
  | .hbm, ⟨57, _⟩ => ⟨S64x4096x1, .f32⟩
  | .hbm, ⟨58, _⟩ => ⟨S64x4096x64, .f32⟩
  | .hbm, ⟨59, _⟩ => ⟨S64x4096x64, .f32⟩
  | .hbm, ⟨60, _⟩ => ⟨S64x4096x64, .f32⟩
  | .hbm, ⟨61, _⟩ => ⟨S_, .f32⟩
  | .hbm, ⟨62, _⟩ => ⟨S64x64, .f32⟩
  | .hbm, ⟨63, _⟩ => ⟨S64x64x64, .f32⟩
  | .hbm, ⟨64, _⟩ => ⟨S_, .f32⟩
  | .hbm, ⟨65, _⟩ => ⟨S64x64, .f32⟩
  | .hbm, ⟨66, _⟩ => ⟨S64x64, .f32⟩
  | .hbm, ⟨67, _⟩ => ⟨S64x64x1, .f32⟩
  | .hbm, ⟨68, _⟩ => ⟨S64x64x64, .f32⟩
  | .hbm, ⟨69, _⟩ => ⟨S64x64x64, .f32⟩
  | .hbm, ⟨70, _⟩ => ⟨S64x64, .f32⟩
  | .hbm, ⟨71, _⟩ => ⟨S64x64, .f32⟩
  | .hbm, ⟨72, _⟩ => ⟨S_, .f32⟩
  | .hbm, ⟨73, _⟩ => ⟨S64x64, .f32⟩
  | .hbm, ⟨74, _⟩ => ⟨S64x64, .f32⟩
  | .hbm, ⟨75, _⟩ => ⟨S64x64x1, .f32⟩
  | .hbm, ⟨76, _⟩ => ⟨S_, .f32⟩
  | .hbm, ⟨77, _⟩ => ⟨S64x64x1, .f32⟩
  | .hbm, ⟨78, _⟩ => ⟨S64x64x1, .f32⟩
  | .hbm, ⟨79, _⟩ => ⟨S64x64x64, .f32⟩
  | .hbm, ⟨80, _⟩ => ⟨S64x64x64, .f32⟩
  | .hbm, ⟨81, _⟩ => ⟨S64x64x64, .f32⟩
  | .hbm, ⟨82, _⟩ => ⟨S64x64x64, .f32⟩
  | .hbm, ⟨83, _⟩ => ⟨S64x64x64, .f32⟩
  | _, _ => ⟨S64x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_call0_v2 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call1_v0 : Ref sig .tc := ⟨.hbm, 18, rfl⟩
abbrev main_call1_cst : Ref sig .tc := ⟨.hbm, 19, rfl⟩
abbrev main_call1_v1 : Ref sig .tc := ⟨.hbm, 20, rfl⟩
abbrev main_call1_v2 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_cst_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_5 : Ref sig .tc := ⟨.hbm, 52, rfl⟩
abbrev main_v31 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_v39 : Ref sig .tc := ⟨.hbm, 63, rfl⟩
abbrev main_cst_8 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_9 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_10 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩

abbrev nD : Nat := 1
abbrev τ : Topo := Topo.v7x

variable {F : FTy → Type} [FloatOps F]

class Facts₀ : Prop where
  reducesTo_S64x4096x32_S64x4096_d2 : S64x4096x32.ReducesTo [2] S64x4096
  h_S_ : 0 < S_.numel
  bcast_S64x4096_S64x4096x1_0_1 : S64x4096.BroadcastsInDim S64x4096x1 (![0, 1] : Fin 2 → Fin S64x4096x1.rank)
  bcast_S_S64x4096x1 : S_.BroadcastsInDim S64x4096x1 (![] : Fin 0 → Fin S64x4096x1.rank)
  bcast_S64x4096x1_S64x4096x32_0_1_2 : S64x4096x1.BroadcastsInDim S64x4096x32 (![0, 1, 2] : Fin 3 → Fin S64x4096x32.rank)
  reducesTo_S64x32_S64_d1 : S64x32.ReducesTo [1] S64
  bcast_S64_S64x1_0 : S64.BroadcastsInDim S64x1 (![0] : Fin 1 → Fin S64x1.rank)
  bcast_S_S64x1 : S_.BroadcastsInDim S64x1 (![] : Fin 0 → Fin S64x1.rank)
  bcast_S64x1_S64x32_0_1 : S64x1.BroadcastsInDim S64x32 (![0, 1] : Fin 2 → Fin S64x32.rank)
  bcast_S_S64x4096x64 : S_.BroadcastsInDim S64x4096x64 (![] : Fin 0 → Fin S64x4096x64.rank)
  reducesTo_S64x4096x64_S64x4096_d2 : S64x4096x64.ReducesTo [2] S64x4096
  bcast_S_S64x4096 : S_.BroadcastsInDim S64x4096 (![] : Fin 0 → Fin S64x4096.rank)
  bcast_S64x4096x1_S64x4096x64_0_1_2 : S64x4096x1.BroadcastsInDim S64x4096x64 (![0, 1, 2] : Fin 3 → Fin S64x4096x64.rank)
  bcast_S1_S1x1x1_2 : S1.BroadcastsInDim S1x1x1 (![2] : Fin 1 → Fin S1x1x1.rank)
  bcast_S1x1x1_S64x4096x1_0_1_2 : S1x1x1.BroadcastsInDim S64x4096x1 (![0, 1, 2] : Fin 3 → Fin S64x4096x1.rank)
  reducesTo_S64x4096x64_S64x64_d1 : S64x4096x64.ReducesTo [1] S64x64
  bcast_S_S64x64 : S_.BroadcastsInDim S64x64 (![] : Fin 0 → Fin S64x64.rank)
  bcast_S64x64_S64x64x1_0_1 : S64x64.BroadcastsInDim S64x64x1 (![0, 1] : Fin 2 → Fin S64x64x1.rank)
  bcast_S64x64x1_S64x64x64_0_1_2 : S64x64x1.BroadcastsInDim S64x64x64 (![0, 1, 2] : Fin 3 → Fin S64x64x64.rank)
  bcast_S_S64x64x1 : S_.BroadcastsInDim S64x64x1 (![] : Fin 0 → Fin S64x64x1.rank)
  dot_S64x4096x64_S32x64_S64x4096x32_2_1_01_0_n_n_wf : DotDims.WF S64x4096x64 S32x64 S64x4096x32 [2] [1] [0, 1] [0] [] []
  dot_S64x4096x32_S64x32_S64x4096x64_2_1_01_0_n_n_wf : DotDims.WF S64x4096x32 S64x32 S64x4096x64 [2] [1] [0, 1] [0] [] []
  dot_S64x4096x64_S1x64_S64x4096x1_2_1_01_0_n_n_wf : DotDims.WF S64x4096x64 S1x64 S64x4096x1 [2] [1] [0, 1] [0] [] []
  dot_S64x4096x64_S64x64_S64x4096x64_2_1_01_0_n_n_wf : DotDims.WF S64x4096x64 S64x64 S64x4096x64 [2] [1] [0, 1] [0] [] []
  dot_S64x4096x64_S64x4096x64_S64x64x64_1_1_2_2_0_0_wf : DotDims.WF S64x4096x64 S64x4096x64 S64x64x64 [1] [1] [2] [2] [0] [0]

variable [Facts₀]

def dot_S64x4096x64_S32x64_S64x4096x32_2_1_01_0_n_n : DotDims S64x4096x64 S32x64 S64x4096x32 where
  lhsContracting := [2]
  rhsContracting := [1]
  lhsNonContracting := [0, 1]
  rhsNonContracting := [0]
  lhsBatch := []
  rhsBatch := []
  wf := dot_S64x4096x64_S32x64_S64x4096x32_2_1_01_0_n_n_wf
def dot_S64x4096x32_S64x32_S64x4096x64_2_1_01_0_n_n : DotDims S64x4096x32 S64x32 S64x4096x64 where
  lhsContracting := [2]
  rhsContracting := [1]
  lhsNonContracting := [0, 1]
  rhsNonContracting := [0]
  lhsBatch := []
  rhsBatch := []
  wf := dot_S64x4096x32_S64x32_S64x4096x64_2_1_01_0_n_n_wf
def dot_S64x4096x64_S1x64_S64x4096x1_2_1_01_0_n_n : DotDims S64x4096x64 S1x64 S64x4096x1 where
  lhsContracting := [2]
  rhsContracting := [1]
  lhsNonContracting := [0, 1]
  rhsNonContracting := [0]
  lhsBatch := []
  rhsBatch := []
  wf := dot_S64x4096x64_S1x64_S64x4096x1_2_1_01_0_n_n_wf
def dot_S64x4096x64_S64x64_S64x4096x64_2_1_01_0_n_n : DotDims S64x4096x64 S64x64 S64x4096x64 where
  lhsContracting := [2]
  rhsContracting := [1]
  lhsNonContracting := [0, 1]
  rhsNonContracting := [0]
  lhsBatch := []
  rhsBatch := []
  wf := dot_S64x4096x64_S64x64_S64x4096x64_2_1_01_0_n_n_wf
def dot_S64x4096x64_S64x4096x64_S64x64x64_1_1_2_2_0_0 : DotDims S64x4096x64 S64x4096x64 S64x64x64 where
  lhsContracting := [1]
  rhsContracting := [1]
  lhsNonContracting := [2]
  rhsNonContracting := [2]
  lhsBatch := [0]
  rhsBatch := [0]
  wf := dot_S64x4096x64_S64x4096x64_S64x64x64_1_1_2_2_0_0_wf

class Facts : Prop extends Facts₀ where

variable [Facts]
-- ==== Proof.SlotSpec.lean ====
/-
  The slot-memory write of one batch row, as mathematics on the extended reals.

  A batch row is a sequence of T token vectors x(t, ·) of width D. Each token is projected to an address query
  q(t, ·) = x(t, ·) · Wqᵀ, the query is scaled to unit Euclidean length (its length floored at a small constant),
  scored against S unit-length slot addresses k(s, ·) and divided by a temperature; a softmax over the slots
  (shifted by the row's largest score) gives the token's write weights, which a logistic gate of x(t, ·) · wg + bg
  scales. Slot s then receives the total weight w(s) = Σ_t ww(t, s) and the weighted sum Σ_t ww(t, s) · v(t, e) of
  the tokens' value projections v(t, ·) = x(t, ·) · Wvᵀ; its stored row moves towards the weighted mean
  (the sum over the floored total weight) by the fraction 1 − e^{−w(s)}.

  Every function below is stated index by index over plain coordinates; the five float literals the two programs
  share are kept as the words they are printed with, so neither side ever evaluates one of them.
-/
import Idealize.ShloMosaic.PureOps.Ideal

noncomputable section

namespace Cert.SlotWrite

open Idealize.ShloMosaic

variable {T D A S E : ℕ}

/-- The floor under a Euclidean length (the float nearest 1e-12). -/
abbrev lenFloor : EReal := Ideal.ofBits .f32 0x2B8CBCCC#32
/-- The temperature the scores are divided by (0.25). -/
abbrev temperature : EReal := Ideal.ofBits .f32 0x3E800000#32
/-- The value a running maximum starts from (the word of −∞). -/
abbrev lowest : EReal := Ideal.ofBits .f32 0xFF800000#32
/-- The floor under a slot's total weight (the float nearest 1e-6). -/
abbrev weightFloor : EReal := Ideal.ofBits .f32 0x358637BD#32
/-- The word of 1.0. -/
abbrev unity : EReal := Ideal.ofBits .f32 0x3F800000#32

/-- Rows of `x` against rows of `w`: (x · wᵀ)(t, a) = Σ_d x(t, d) · w(a, d). -/
def proj (x : Fin T → Fin D → EReal) (w : Fin A → Fin D → EReal) (t : Fin T) (a : Fin A) : EReal :=
  ∑ d : Fin D, x t d * w a d

/-- The Euclidean length of row `t`. -/
def len (v : Fin T → Fin A → EReal) (t : Fin T) : EReal :=
  Ideal.sqrt (∑ a : Fin A, v t a * v t a)

/-- Row `t` over its floored length. -/
def unitRow (v : Fin T → Fin A → EReal) (t : Fin T) (a : Fin A) : EReal :=
  Ideal.div (v t a) (max (len v t) lenFloor)

/-- The score of query row `t` against address row `s`, over the temperature. -/
def score (q : Fin T → Fin A → EReal) (k : Fin S → Fin A → EReal) (t : Fin T) (s : Fin S) : EReal :=
  Ideal.div (∑ a : Fin A, q t a * k s a) temperature

/-- The largest entry of row `t`, folded from the lowest value. -/
def rowMax (z : Fin T → Fin S → EReal) (t : Fin T) : EReal :=
  (Finset.univ : Finset (Fin S)).fold max lowest (fun s => z t s)

/-- The softmax of row `t`, shifted by the row's largest entry. -/
def softmax (z : Fin T → Fin S → EReal) (t : Fin T) (s : Fin S) : EReal :=
  Ideal.div (Ideal.exp (z t s - rowMax z t)) (∑ s' : Fin S, Ideal.exp (z t s' - rowMax z t))

/-- The write gate of token `t`. -/
def gate (x : Fin T → Fin D → EReal) (wg : Fin D → EReal) (bg : EReal) (t : Fin T) : EReal :=
  Ideal.logistic ((∑ d : Fin D, x t d * wg d) + bg)

/-- The gated write weight of token `t` on slot `s`. -/
def writeWeight (x : Fin T → Fin D → EReal) (wq : Fin A → Fin D → EReal) (k : Fin S → Fin A → EReal)
    (wg : Fin D → EReal) (bg : EReal) (t : Fin T) (s : Fin S) : EReal :=
  softmax (score (unitRow (proj x wq)) k) t s * gate x wg bg t

/-- The total weight slot `s` receives. -/
def slotWeight (ww : Fin T → Fin S → EReal) (s : Fin S) : EReal :=
  ∑ t : Fin T, ww t s

/-- The weighted sum of the tokens' values slot `s` receives, at value coordinate `e`. -/
def slotSum (ww : Fin T → Fin S → EReal) (v : Fin T → Fin E → EReal) (s : Fin S) (e : Fin E) : EReal :=
  ∑ t : Fin T, ww t s * v t e

/-- The stored row moved towards the weighted mean by the fraction 1 − e^{−w(s)}. -/
def blend (mem : Fin S → Fin E → EReal) (ww : Fin T → Fin S → EReal) (v : Fin T → Fin E → EReal)
    (s : Fin S) (e : Fin E) : EReal :=
  mem s e * (unity - (unity - Ideal.exp (-(slotWeight ww s))))
    + Ideal.div (slotSum ww v s e) (max (slotWeight ww s) weightFloor) * (unity - Ideal.exp (-(slotWeight ww s)))

/-- One batch row's new slot memory. -/
def slotUpdate (x : Fin T → Fin D → EReal) (mem : Fin S → Fin E → EReal) (k : Fin S → Fin A → EReal)
    (wq : Fin A → Fin D → EReal) (wv : Fin E → Fin D → EReal) (wg : Fin D → EReal) (bg : EReal) :
    Fin S → Fin E → EReal :=
  blend mem (writeWeight x wq k wg bg) (proj x wv)

/-- A running maximum started from a value is at least that value, so flooring it by the same value changes nothing. -/
theorem max_fold_max (c : EReal) (f : Fin S → EReal) :
    max c ((Finset.univ : Finset (Fin S)).fold max c f) = (Finset.univ : Finset (Fin S)).fold max c f :=
  max_eq_right ((Finset.le_fold_max c).mpr (Or.inl le_rfl))

end Cert.SlotWrite

end
-- ==== Proof.SlotArrays.lean ====
/-
  The arrays of the two programs seen through coordinates, and the result both programs are shown to compute.

  A [B, T, D] array is B tables of T rows; a [M, N] array is a table; a [1, N] array is one row. The result array
  holds, for batch row b, the slot memory `slotUpdate` makes of x's table b, the stored memory's table b, the slot
  addresses scaled to unit length, the three weight tables and the gate's bias.
-/
import proofs.«174082_j2714419331664_1_alg».proof.Proof.SlotSpec
import Idealize.ShloMosaic.Lib.ValueIdx

noncomputable section

namespace Cert.SlotWrite

open Idealize.ShloMosaic Idealize.ShloMosaic.ValueIdx

/-- Two indices built coordinate by coordinate agree when each coordinate does. -/
macro "idx_rfl" : tactic => `(tactic| (funext c; apply Fin.ext; first
  | (match c with | ⟨0, _⟩ => rfl | ⟨1, _⟩ => rfl | ⟨2, _⟩ => rfl)
  | (match c with | ⟨0, _⟩ => rfl | ⟨1, _⟩ => rfl)
  | (match c with | ⟨0, _⟩ => rfl)))

/-- Table `b` of a stack of tables. -/
def slab {B T D : ℕ} (x : (⟨3, ![B, T, D]⟩ : Shape).Idx → EReal) (b : Fin B) : Fin T → Fin D → EReal :=
  fun t d => x (ix3 b t d)

/-- A rank-2 array as a table. -/
def table {M N : ℕ} (x : (⟨2, ![M, N]⟩ : Shape).Idx → EReal) : Fin M → Fin N → EReal :=
  fun i j => x (ix2 i j)

/-- The one row of a [1, N] array. -/
def onlyRow {N : ℕ} (x : (⟨2, ![1, N]⟩ : Shape).Idx → EReal) : Fin N → EReal :=
  fun j => x (ix2 (0 : Fin 1) j)

/-- The new slot memory of every batch row, as one function of the seven argument arrays. -/
def newMemory (x : (⟨3, ![64, 4096, 64]⟩ : Shape).Idx → EReal) (addr : (⟨2, ![64, 32]⟩ : Shape).Idx → EReal)
    (mem : (⟨3, ![64, 64, 64]⟩ : Shape).Idx → EReal) (wq : (⟨2, ![32, 64]⟩ : Shape).Idx → EReal)
    (wv : (⟨2, ![64, 64]⟩ : Shape).Idx → EReal) (wg : (⟨2, ![1, 64]⟩ : Shape).Idx → EReal)
    (bg : (⟨1, ![1]⟩ : Shape).Idx → EReal) : (⟨3, ![64, 64, 64]⟩ : Shape).Idx → EReal :=
  fun i => slotUpdate (slab x (i 0)) (slab mem (i 0)) (unitRow (table addr)) (table wq) (table wv) (onlyRow wg)
    (bg (ix1 (0 : Fin 1))) (i 1) (i 2)

/-- The result at explicit coordinates. -/
theorem newMemory_apply (x : (⟨3, ![64, 4096, 64]⟩ : Shape).Idx → EReal) (addr : (⟨2, ![64, 32]⟩ : Shape).Idx → EReal)
    (mem : (⟨3, ![64, 64, 64]⟩ : Shape).Idx → EReal) (wq : (⟨2, ![32, 64]⟩ : Shape).Idx → EReal)
    (wv : (⟨2, ![64, 64]⟩ : Shape).Idx → EReal) (wg : (⟨2, ![1, 64]⟩ : Shape).Idx → EReal)
    (bg : (⟨1, ![1]⟩ : Shape).Idx → EReal) (b s e : Fin 64) :
    newMemory x addr mem wq wv wg bg (ix3 b s e)
      = slotUpdate (slab x b) (slab mem b) (unitRow (table addr)) (table wq) (table wv) (onlyRow wg)
          (bg (ix1 (0 : Fin 1))) s e := rfl

end Cert.SlotWrite

end
-- ==== Proof.LibReduceAt.lean ====
/-
  Reductions over one axis read at an index of the result, at the ideal instance, with the reduced index named by
  its coordinates.

  For an a by b array: a row's sum, a row's minimum and a column's maximum (a kernel's vector reductions) are the sum,
  the fold of min and the fold of max over the coordinate that was reduced away, of the array's entries at (i, j).
  For an n by a by b array the host's one-operand reduce with a commutative associative operation, along the last axis
  or along the middle axis, is likewise the fold from its initial value over that coordinate of the entries at
  (n, i, j). The folds are over the whole finite type of the reduced coordinate, in no particular order.
-/
import Idealize.ShloMosaic.PureOps.Ideal.Laws
import Idealize.ShloMosaic.PureOps.Reduce
import Idealize.ShloMosaic.Lib.ValueIdx

noncomputable section

namespace Idealize.ShloMosaic.ReduceAt

open Idealize.ShloMosaic Idealize.ShloMosaic.ValueIdx

variable {a b n : ℕ} {φ : FTy}

/-! ### Rank 2: the index put back by a reduction along the columns' axis, or along the rows' axis -/

theorem lift_along_row (h : (⟨2, ![a, b]⟩ : Shape).Reduces [(1 : Fin 2)] ⟨1, ![a]⟩) (i : Fin a) (j : Fin b) :
    h.lift (ix1 i) j = ix2 i j := by
  funext ax
  apply Fin.ext
  match ax with
  | ⟨0, _⟩ => rfl
  | ⟨1, _⟩ => rfl

theorem lift_along_col (h : (⟨2, ![a, b]⟩ : Shape).Reduces [(0 : Fin 2)] ⟨1, ![b]⟩) (j : Fin b) (i : Fin a) :
    h.lift (ix1 j) i = ix2 i j := by
  funext ax
  apply Fin.ext
  match ax with
  | ⟨0, _⟩ => rfl
  | ⟨1, _⟩ => rfl

/-- A row's sum. -/
theorem row_sum_apply (v : FVec Ideal (⟨2, ![a, b]⟩ : Shape) φ) (acc : BitVec φ.bits)
    (h : (⟨2, ![a, b]⟩ : Shape).Reduces [(1 : Fin 2)] ⟨1, ![a]⟩) (hφ : FKind.Formats φ) (hacc : acc = FKind.add.neutral φ hφ)
    (i : Fin a) :
    multiReduction .add [(1 : Fin 2)] ⟨1, ![a]⟩ v acc h hφ hacc (ix1 i) = ∑ j : Fin b, v (ix2 i j) :=
  (Ideal.multiReduction_add_single v acc h hφ hacc (ix1 i)).trans
    (Finset.sum_congr rfl fun j _ => congrArg v (lift_along_row h i j))

/-- A column's sum. -/
theorem col_sum_apply (v : FVec Ideal (⟨2, ![a, b]⟩ : Shape) φ) (acc : BitVec φ.bits)
    (h : (⟨2, ![a, b]⟩ : Shape).Reduces [(0 : Fin 2)] ⟨1, ![b]⟩) (hφ : FKind.Formats φ) (hacc : acc = FKind.add.neutral φ hφ)
    (j : Fin b) :
    multiReduction .add [(0 : Fin 2)] ⟨1, ![b]⟩ v acc h hφ hacc (ix1 j) = ∑ i : Fin a, v (ix2 i j) :=
  (Ideal.multiReduction_add_single v acc h hφ hacc (ix1 j)).trans
    (Finset.sum_congr rfl fun i _ => congrArg v (lift_along_col h j i))

/-- A row's minimum, from the accumulator's value. -/
theorem row_min_apply (v : FVec Ideal (⟨2, ![a, b]⟩ : Shape) φ) (acc : BitVec φ.bits)
    (h : (⟨2, ![a, b]⟩ : Shape).Reduces [(1 : Fin 2)] ⟨1, ![a]⟩) (hφ : FKind.Formats φ) (hacc : acc = FKind.minimumf.neutral φ hφ)
    (i : Fin a) :
    multiReduction .minimumf [(1 : Fin 2)] ⟨1, ![a]⟩ v acc h hφ hacc (ix1 i)
      = (Finset.univ : Finset (Fin b)).fold min (Ideal.ofBits φ acc) (fun j => v (ix2 i j)) := by
  rw [multiReduction_minimumf_eq_fold, h.fold_filter_drop_single]
  have e : (v ∘ h.lift (ix1 i)) = fun j : Fin b => v (ix2 i j) := funext fun j => congrArg v (lift_along_row h i j)
  rw [e]
  rfl

/-- A column's maximum, from the accumulator's value. -/
theorem col_max_apply (v : FVec Ideal (⟨2, ![a, b]⟩ : Shape) φ) (acc : BitVec φ.bits)
    (h : (⟨2, ![a, b]⟩ : Shape).Reduces [(0 : Fin 2)] ⟨1, ![b]⟩) (hφ : FKind.Formats φ) (hacc : acc = FKind.maximumf.neutral φ hφ)
    (j : Fin b) :
    multiReduction .maximumf [(0 : Fin 2)] ⟨1, ![b]⟩ v acc h hφ hacc (ix1 j)
      = (Finset.univ : Finset (Fin a)).fold max (Ideal.ofBits φ acc) (fun i => v (ix2 i j)) := by
  rw [Ideal.multiReduction_maximumf_single]
  have e : (v ∘ h.lift (ix1 j)) = fun i : Fin a => v (ix2 i j) := funext fun i => congrArg v (lift_along_col h j i)
  rw [e]
  rfl

/-! ### Rank 3: the host's reduce along the last axis, or along the middle axis -/

theorem lift_along_last (h : (⟨3, ![n, a, b]⟩ : Shape).Reduces [(2 : Fin 3)] ⟨2, ![n, a]⟩) (p : Fin n) (i : Fin a) (j : Fin b) :
    h.lift (ix2 p i) j = ix3 p i j := by
  funext ax
  apply Fin.ext
  match ax with
  | ⟨0, _⟩ => rfl
  | ⟨1, _⟩ => rfl
  | ⟨2, _⟩ => rfl

theorem lift_along_middle (h : (⟨3, ![n, a, b]⟩ : Shape).Reduces [(1 : Fin 3)] ⟨2, ![n, b]⟩) (p : Fin n) (j : Fin b) (i : Fin a) :
    h.lift (ix2 p j) i = ix3 p i j := by
  funext ax
  apply Fin.ext
  match ax with
  | ⟨0, _⟩ => rfl
  | ⟨1, _⟩ => rfl
  | ⟨2, _⟩ => rfl

/-- The host's reduce along the last axis. -/
theorem host_reduce_last_apply {u : Shape} (f : EReal → EReal → EReal) [Std.Commutative f] [Std.Associative f]
    (x : (⟨3, ![n, a, b]⟩ : Shape).Idx → EReal) (init : u.Idx → EReal)
    (h' : (⟨3, ![n, a, b]⟩ : Shape).ReducesTo [(2 : Fin 3)] ⟨2, ![n, a]⟩) (hu : 0 < u.numel)
    (h : (⟨3, ![n, a, b]⟩ : Shape).Reduces [(2 : Fin 3)] ⟨2, ![n, a]⟩) (p : Fin n) (i : Fin a) :
    Host.reduce f x init h' hu (ix2 p i)
      = (Finset.univ : Finset (Fin b)).fold f (init (Shape.Idx.first hu)) (fun j => x (ix3 p i j)) := by
  rw [Host.reduce_eq_fold, Shape.ReducesTo.drop_eq_drop h' h, h.fold_filter_drop_single]
  have e : (x ∘ h.lift (ix2 p i)) = fun j : Fin b => x (ix3 p i j) := funext fun j => congrArg x (lift_along_last h p i j)
  rw [e]
  rfl

/-- The host's reduce along the middle axis. -/
theorem host_reduce_middle_apply {u : Shape} (f : EReal → EReal → EReal) [Std.Commutative f] [Std.Associative f]
    (x : (⟨3, ![n, a, b]⟩ : Shape).Idx → EReal) (init : u.Idx → EReal)
    (h' : (⟨3, ![n, a, b]⟩ : Shape).ReducesTo [(1 : Fin 3)] ⟨2, ![n, b]⟩) (hu : 0 < u.numel)
    (h : (⟨3, ![n, a, b]⟩ : Shape).Reduces [(1 : Fin 3)] ⟨2, ![n, b]⟩) (p : Fin n) (j : Fin b) :
    Host.reduce f x init h' hu (ix2 p j)
      = (Finset.univ : Finset (Fin a)).fold f (init (Shape.Idx.first hu)) (fun i => x (ix3 p i j)) := by
  rw [Host.reduce_eq_fold, Shape.ReducesTo.drop_eq_drop h' h, h.fold_filter_drop_single]
  have e : (x ∘ h.lift (ix2 p j)) = fun i : Fin a => x (ix3 p i j) := funext fun i => congrArg x (lift_along_middle h p j i)
  rw [e]
  rfl

end Idealize.ShloMosaic.ReduceAt

end
-- ==== Proof.RefScores.lean ====
/-
  The reference, read at coordinates, up to the softmax of the scores.

  For batch row b the reference's projected queries, their Euclidean lengths, the unit queries, the unit slot
  addresses, the scores, each score row's maximum and the softmax are the functions of SlotSpec applied to table b
  of x, to the query weights and to the addresses. Each statement reads one named stage of the reference at an index
  written by its coordinates; the stage's operations are read one at a time by the generated read-at-an-index
  lemmas, the index each of them composes is identified with the coordinates, and the maximum along the slots —
  the one stage those lemmas do not read — is read as a fold of max from its initial value.
-/
import proofs.«174082_j2714419331664_1_alg».proof.Proof.Gen.ReferenceIdeal.Read
import proofs.«174082_j2714419331664_1_alg».proof.Proof.SlotArrays
import proofs.«174082_j2714419331664_1_alg».proof.Proof.LibReduceAt

noncomputable section

namespace Cert.SlotWrite.Ref

open Cert.ReferenceIdeal Cert.ReferenceIdeal.Gen Cert.ReferenceIdeal.Read
open Idealize.ShloMosaic Idealize.ShloMosaic.ValueIdx Cert.SlotWrite

variable (x0 : (⟨3, ![64, 4096, 64]⟩ : Shape).Idx → EReal) (x1 : (⟨2, ![64, 32]⟩ : Shape).Idx → EReal)
  (x3 : (⟨2, ![32, 64]⟩ : Shape).Idx → EReal)

/-! ### The composed indices, by coordinates -/

theorem lq (b : Fin 64) (t : Fin 4096) (a : Fin 32) (k : Fin 64) : lidx_main_v0 (ix3 b t a) k = ix3 b t k := by idx_rfl
theorem rq (b : Fin 64) (t : Fin 4096) (a : Fin 32) (k : Fin 64) : ridx_main_v0 (ix3 b t a) k = ix2 a k := by idx_rfl
theorem iq1 (b : Fin 64) (t : Fin 4096) (k : Fin 32) : idx_main_call0_v1 (ix2 b t) k = ix3 b t k := by idx_rfl
theorem iq2 (b : Fin 64) (t : Fin 4096) : idx_main_call0_v2 (ix3 b t (0 : Fin 1)) = ix2 b t := by idx_rfl
theorem iq4 (b : Fin 64) (t : Fin 4096) (a : Fin 32) : idx_main_v4 (ix3 b t a) = ix3 b t (0 : Fin 1) := by idx_rfl
theorem ia1 (s : Fin 64) (k : Fin 32) : idx_main_call1_v1 (ix1 s) k = ix2 s k := by idx_rfl
theorem ia2 (s : Fin 64) : idx_main_call1_v2 (ix2 s (0 : Fin 1)) = ix1 s := by idx_rfl
theorem ia9 (s : Fin 64) (a : Fin 32) : idx_main_v9 (ix2 s a) = ix2 s (0 : Fin 1) := by idx_rfl
theorem ls (b : Fin 64) (t : Fin 4096) (s : Fin 64) (k : Fin 32) : lidx_main_v11 (ix3 b t s) k = ix3 b t k := by idx_rfl
theorem rs (b : Fin 64) (t : Fin 4096) (s : Fin 64) (k : Fin 32) : ridx_main_v11 (ix3 b t s) k = ix2 s k := by idx_rfl
theorem im17 (b : Fin 64) (t : Fin 4096) : idx_main_v17 (ix3 b t (0 : Fin 1)) = ix2 b t := by idx_rfl
theorem im18 (b : Fin 64) (t : Fin 4096) (s : Fin 64) : idx_main_v18 (ix3 b t s) = ix3 b t (0 : Fin 1) := by idx_rfl
theorem id21 (b : Fin 64) (t : Fin 4096) (k : Fin 64) : idx_main_v21 (ix2 b t) k = ix3 b t k := by idx_rfl
theorem id22 (b : Fin 64) (t : Fin 4096) : idx_main_v22 (ix3 b t (0 : Fin 1)) = ix2 b t := by idx_rfl
theorem id23 (b : Fin 64) (t : Fin 4096) (s : Fin 64) : idx_main_v23 (ix3 b t s) = ix3 b t (0 : Fin 1) := by idx_rfl

/-! ### The stages -/

/-- The projected query of token t of batch row b. -/
theorem query_at (b : Fin 64) (t : Fin 4096) (a : Fin 32) :
    val_main_v0 (F := Ideal) x0 x3 (ix3 b t a) = proj (slab x0 b) (table x3) t a := by
  simp only [val_main_v0_apply, lq, rq, proj, slab, table]

/-- Its Euclidean length: the square root of the sum of squares (the sum starts from the zero word). -/
theorem queryLen_at (b : Fin 64) (t : Fin 4096) :
    val_main_v1 (F := Ideal) x0 x3 (ix3 b t (0 : Fin 1)) = len (proj (slab x0 b) (table x3)) t := by
  simp only [val_main_v1_apply, val_main_call0_v2_apply, iq2, val_main_call0_v1_apply, val_main_call0_cst_apply, iq1,
    val_main_call0_v0_apply, query_at, Ideal.hostUnary_sqrt_def, Ideal.ofBits_def, Ideal.ofBits_zero_f32, zero_add,
    Ideal.mulf_def, len]

/-- The query over its floored length. -/
theorem unitQuery_at (b : Fin 64) (t : Fin 4096) (a : Fin 32) :
    val_main_v5 (F := Ideal) x0 x3 (ix3 b t a) = unitRow (proj (slab x0 b) (table x3)) t a := by
  simp only [val_main_v5_apply, val_main_v4_apply, iq4, val_main_v3_apply, val_main_v2_apply, val_main_cst_apply,
    queryLen_at, query_at, Ideal.hostDivf_def, Ideal.maximumf_def, Ideal.ofBits_def, unitRow]

/-- The Euclidean length of slot address s. -/
theorem addrLen_at (s : Fin 64) :
    val_main_v6 (F := Ideal) x1 (ix2 s (0 : Fin 1)) = len (table x1) s := by
  simp only [val_main_v6_apply, val_main_call1_v2_apply, ia2, val_main_call1_v1_apply, val_main_call1_cst_apply, ia1,
    val_main_call1_v0_apply, Ideal.hostUnary_sqrt_def, Ideal.ofBits_def, Ideal.ofBits_zero_f32, zero_add,
    Ideal.mulf_def, len, table]

/-- The slot address over its floored length. -/
theorem unitAddr_at (s : Fin 64) (a : Fin 32) :
    val_main_v10 (F := Ideal) x1 (ix2 s a) = unitRow (table x1) s a := by
  have h : x1 (ix2 s a) = table x1 s a := rfl
  simp only [val_main_v10_apply, val_main_v9_apply, ia9, val_main_v8_apply, val_main_v7_apply, val_main_cst_0_apply,
    addrLen_at, h, Ideal.hostDivf_def, Ideal.maximumf_def, Ideal.ofBits_def, unitRow]

/-- The score of token t against slot s, over the temperature. -/
theorem score_at (b : Fin 64) (t : Fin 4096) (s : Fin 64) :
    val_main_v13 (F := Ideal) x0 x1 x3 (ix3 b t s)
      = score (unitRow (proj (slab x0 b) (table x3))) (unitRow (table x1)) t s := by
  simp only [val_main_v13_apply, val_main_v12_apply, val_main_cst_1_apply, val_main_v11_apply, ls, rs, unitQuery_at,
    unitAddr_at, Ideal.hostDivf_def, Ideal.ofBits_def, score]

/-- The reduction along the slots, read by hand: a fold of max over the slot coordinate from the initial value. -/
theorem scoreFold_at (b : Fin 64) (t : Fin 4096) :
    val_main_v14 (F := Ideal) x0 x1 x3 (ix2 b t)
      = (Finset.univ : Finset (Fin 64)).fold max lowest (fun s => val_main_v13 (F := Ideal) x0 x1 x3 (ix3 b t s)) :=
  ReduceAt.host_reduce_last_apply (n := 64) (a := 4096) (b := 64) max (val_main_v13 (F := Ideal) x0 x1 x3)
    (val_main_cst_2 (F := Ideal)) reducesTo_S64x4096x64_S64x4096_d2 h_S_ (by decide) b t

/-- The largest score of token t: flooring the fold by the value it started from changes nothing. -/
theorem scoreMax_at (b : Fin 64) (t : Fin 4096) :
    val_main_v16 (F := Ideal) x0 x1 x3 (ix2 b t)
      = rowMax (score (unitRow (proj (slab x0 b) (table x3))) (unitRow (table x1))) t := by
  rw [val_main_v16_apply, val_main_v15_apply, val_main_cst_3_apply, scoreFold_at]
  simp only [score_at]
  exact max_fold_max _ _

/-- The softmax of token t's scores. -/
theorem softmax_at (b : Fin 64) (t : Fin 4096) (s : Fin 64) :
    val_main_v24 (F := Ideal) x0 x1 x3 (ix3 b t s)
      = softmax (score (unitRow (proj (slab x0 b) (table x3))) (unitRow (table x1))) t s := by
  simp only [val_main_v24_apply, val_main_v23_apply, id23, val_main_v22_apply, id22, val_main_v21_apply,
    val_main_cst_4_apply, id21, val_main_v20_apply, val_main_v19_apply, val_main_v18_apply, im18, val_main_v17_apply,
    im17, scoreMax_at, score_at, Ideal.hostUnary_exp_def, Ideal.subf_def, Ideal.hostDivf_def, Ideal.ofBits_def,
    Ideal.ofBits_zero_f32, zero_add, softmax]

end Cert.SlotWrite.Ref

end
-- ==== Proof.UnitWord.lean ====
/-
  The one float literal whose value matters: the word 0x3F800000 denotes the number 1.

  The kernel's logistic is the single operation 1 / (1 + e^{−x}) on the extended reals, the reference spells the
  same expression with the literal 1.0 twice; the two meet once that literal is read as the number 1.
-/
import Idealize.ShloMosaic.PureOps.Ideal

noncomputable section

namespace Cert.SlotWrite

open Idealize.ShloMosaic

/-- Sign 0, biased exponent 127, fraction 0: the number 1. -/
theorem word_one : Ideal.ofBits .f32 0x3F800000#32 = 1 := by
  simp [Ideal.ofBits, Ideal.ieee, -EReal.coe_mul]
  norm_num

end Cert.SlotWrite

end
-- ==== Proof.RefGate.lean ====
/-
  The reference, read at coordinates: the write gate of a token and its value projection.

  For batch row b the gate of token t is the logistic function of x(t, ·) · wg + bg — the reference spells the
  logistic out as 1 / (1 + e^{−z}) with the literal 1.0, which is the number 1 — and the value projection is
  x(t, ·) · Wvᵀ.
-/
import proofs.«174082_j2714419331664_1_alg».proof.Proof.Gen.ReferenceIdeal.Read
import proofs.«174082_j2714419331664_1_alg».proof.Proof.SlotArrays
import proofs.«174082_j2714419331664_1_alg».proof.Proof.UnitWord

noncomputable section

namespace Cert.SlotWrite.Ref

open Cert.ReferenceIdeal Cert.ReferenceIdeal.Gen Cert.ReferenceIdeal.Read
open Idealize.ShloMosaic Idealize.ShloMosaic.ValueIdx Cert.SlotWrite

variable (x0 : (⟨3, ![64, 4096, 64]⟩ : Shape).Idx → EReal) (x4 : (⟨2, ![64, 64]⟩ : Shape).Idx → EReal)
  (x5 : (⟨2, ![1, 64]⟩ : Shape).Idx → EReal) (x6 : (⟨1, ![1]⟩ : Shape).Idx → EReal)

theorem lg (b : Fin 64) (t : Fin 4096) (k : Fin 64) : lidx_main_v25 (ix3 b t (0 : Fin 1)) k = ix3 b t k := by idx_rfl
theorem rg (b : Fin 64) (t : Fin 4096) (k : Fin 64) : ridx_main_v25 (ix3 b t (0 : Fin 1)) k = ix2 (0 : Fin 1) k := by idx_rfl
theorem ibias (j : Cert.ReferenceIdeal.S1x1x1.Idx) : idx_main_v26 j = ix1 (0 : Fin 1) := by idx_rfl
theorem lv (b : Fin 64) (t : Fin 4096) (e : Fin 64) (k : Fin 64) : lidx_main_v37 (ix3 b t e) k = ix3 b t k := by idx_rfl
theorem rv (b : Fin 64) (t : Fin 4096) (e : Fin 64) (k : Fin 64) : ridx_main_v37 (ix3 b t e) k = ix2 e k := by idx_rfl

/-- The write gate of token t of batch row b. -/
theorem gate_at (b : Fin 64) (t : Fin 4096) :
    val_main_v34 (F := Ideal) x0 x5 x6 (ix3 b t (0 : Fin 1))
      = gate (slab x0 b) (onlyRow x5) (x6 (ix1 (0 : Fin 1))) t := by
  simp only [val_main_v34_apply, val_main_v33_apply, val_main_cst_6_apply, val_main_v32_apply, val_main_v31_apply,
    val_main_cst_5_apply, val_main_v30_apply, val_main_v29_apply, val_main_v28_apply, val_main_v27_apply,
    val_main_v26_apply, ibias, val_main_v25_apply, lg, rg, Ideal.hostDivf_def, Ideal.addf_def,
    Ideal.hostUnary_exp_def, Ideal.hostNegf_def, Ideal.negf_def, Ideal.ofBits_def, word_one, gate, Ideal.logistic,
    slab, onlyRow]

/-- The value projection of token t of batch row b. -/
theorem value_at (b : Fin 64) (t : Fin 4096) (e : Fin 64) :
    val_main_v37 (F := Ideal) x0 x4 (ix3 b t e) = proj (slab x0 b) (table x4) t e := by
  simp only [val_main_v37_apply, lv, rv, proj, slab, table]

end Cert.SlotWrite.Ref

end
-- ==== Proof.RefSlots.lean ====
/-
  The reference's result is the specified slot memory.

  For batch row b: the gated write weights, each slot's total weight (a sum over the tokens that starts from the
  zero word), each slot's weighted sum of value projections (a batched contraction over the tokens), and the blend
  of the stored row with the weighted mean. With these the reference's result array is `newMemory` of the argument
  arrays, index by index.
-/
import proofs.«174082_j2714419331664_1_alg».proof.Proof.RefScores
import proofs.«174082_j2714419331664_1_alg».proof.Proof.RefGate

noncomputable section

namespace Cert.SlotWrite.Ref

open Cert.ReferenceIdeal Cert.ReferenceIdeal.Gen Cert.ReferenceIdeal.Read
open Idealize.ShloMosaic Idealize.ShloMosaic.ValueIdx Cert.SlotWrite

variable (x0 : (⟨3, ![64, 4096, 64]⟩ : Shape).Idx → EReal) (x1 : (⟨2, ![64, 32]⟩ : Shape).Idx → EReal)
  (x2 : (⟨3, ![64, 64, 64]⟩ : Shape).Idx → EReal) (x3 : (⟨2, ![32, 64]⟩ : Shape).Idx → EReal)
  (x4 : (⟨2, ![64, 64]⟩ : Shape).Idx → EReal) (x5 : (⟨2, ![1, 64]⟩ : Shape).Idx → EReal)
  (x6 : (⟨1, ![1]⟩ : Shape).Idx → EReal)

theorem ig35 (b : Fin 64) (t : Fin 4096) (s : Fin 64) : idx_main_v35 (ix3 b t s) = ix3 b t (0 : Fin 1) := by idx_rfl
theorem iw38 (b s : Fin 64) (k : Fin 4096) : idx_main_v38 (ix2 b s) k = ix3 b k s := by idx_rfl
theorem lu (b s e : Fin 64) (k : Fin 4096) : lidx_main_v39 (ix3 b s e) k = ix3 b k s := by idx_rfl
theorem ru (b s e : Fin 64) (k : Fin 4096) : ridx_main_v39 (ix3 b s e) k = ix3 b k e := by idx_rfl
theorem ik (b s e : Fin 64) : idx_main_v43 (ix3 b s e) = ix3 b s (0 : Fin 1) := by idx_rfl
theorem ik42 (b s : Fin 64) : idx_main_v42 (ix3 b s (0 : Fin 1)) = ix2 b s := by idx_rfl
theorem ik49 (b s : Fin 64) : idx_main_v49 (ix3 b s (0 : Fin 1)) = ix2 b s := by idx_rfl
theorem ik52 (b s e : Fin 64) : idx_main_v52 (ix3 b s e) = ix3 b s (0 : Fin 1) := by idx_rfl
theorem ik54 (b s e : Fin 64) : idx_main_v54 (ix3 b s e) = ix3 b s (0 : Fin 1) := by idx_rfl

/-- The gated write weight of token t on slot s. -/
theorem weight_at (b : Fin 64) (t : Fin 4096) (s : Fin 64) :
    val_main_v36 (F := Ideal) x0 x1 x3 x5 x6 (ix3 b t s)
      = writeWeight (slab x0 b) (table x3) (unitRow (table x1)) (onlyRow x5) (x6 (ix1 (0 : Fin 1))) t s := by
  simp only [val_main_v36_apply, val_main_v35_apply, ig35, softmax_at, gate_at, Ideal.mulf_def, writeWeight]

/-- The total weight slot s receives. -/
theorem slotWeight_at (b s : Fin 64) :
    val_main_v38 (F := Ideal) x0 x1 x3 x5 x6 (ix2 b s)
      = slotWeight (writeWeight (slab x0 b) (table x3) (unitRow (table x1)) (onlyRow x5) (x6 (ix1 (0 : Fin 1)))) s := by
  simp only [val_main_v38_apply, val_main_cst_7_apply, iw38, weight_at, Ideal.ofBits_def, Ideal.ofBits_zero_f32,
    zero_add, slotWeight]

/-- The weighted sum of value projections slot s receives. -/
theorem slotSum_at (b s e : Fin 64) :
    val_main_v39 (F := Ideal) x0 x1 x3 x4 x5 x6 (ix3 b s e)
      = slotSum (writeWeight (slab x0 b) (table x3) (unitRow (table x1)) (onlyRow x5) (x6 (ix1 (0 : Fin 1))))
          (proj (slab x0 b) (table x4)) s e := by
  simp only [val_main_v39_apply, lu, ru, weight_at, value_at, slotSum]

/-- The result at (b, s, e): the stored row blended with the weighted mean. -/
theorem result_at (b s e : Fin 64) :
    val_main_v56 (F := Ideal) x0 x1 x2 x3 x4 x5 x6 (ix3 b s e)
      = blend (slab x2 b) (writeWeight (slab x0 b) (table x3) (unitRow (table x1)) (onlyRow x5) (x6 (ix1 (0 : Fin 1))))
          (proj (slab x0 b) (table x4)) s e := by
  have hm : x2 (ix3 b s e) = slab x2 b s e := rfl
  simp only [val_main_v56_apply, val_main_v55_apply, val_main_v54_apply, ik54, val_main_v53_apply, val_main_v52_apply,
    ik52, val_main_v51_apply, val_main_v50_apply, val_main_cst_10_apply, val_main_v49_apply, ik49, val_main_v48_apply,
    val_main_v47_apply, val_main_cst_9_apply, val_main_v46_apply, val_main_v45_apply, val_main_v44_apply,
    val_main_v43_apply, ik, val_main_v42_apply, ik42, val_main_v41_apply, val_main_v40_apply, val_main_cst_8_apply,
    slotWeight_at, slotSum_at, hm, Ideal.addf_def, Ideal.mulf_def, Ideal.subf_def, Ideal.hostDivf_def,
    Ideal.maximumf_def, Ideal.hostUnary_exp_def, Ideal.hostNegf_def, Ideal.negf_def, Ideal.ofBits_def, blend]

/-- The reference's result array is the specified new memory of its argument arrays. -/
theorem result_eq :
    val_main_v56 (F := Ideal) x0 x1 x2 x3 x4 x5 x6 = newMemory x0 x1 x2 x3 x4 x5 x6 := by
  funext i
  obtain ⟨b, s, e, rfl⟩ : ∃ (b s e : Fin 64), i = ix3 b s e := ⟨i 0, i 1, i 2, eq_ix3 i⟩
  rw [result_at, newMemory_apply]
  rfl

end Cert.SlotWrite.Ref

end
-- ==== Proof.KerStages.lean ====
/-
  The kernel body's arithmetic cut into its stages.

  The body computes, from one batch row's blocks, the softmax write weights (first payload) and the blended slot
  memory (last payload). Each stage below is the body's own sequence of operations over a VARIABLE operand: the query
  projection, a row over its floored length, the scores over the temperature, the shifted softmax, the gated
  weights, the value projection, the slots' weighted sums, the slots' total weights laid out as a column, and the
  blend. The two payloads are, by unfolding alone, the compositions of these stages.
-/
import proofs.«174082_j2714419331664_1_alg».proof.Proof.Gen.KernelIdeal.Skeleton
import Idealize.ShloMosaic.PureOps.Ideal

noncomputable section

namespace Cert.SlotWrite.Ker

open Cert.KernelIdeal Cert.KernelIdeal.Gen Idealize.ShloMosaic

/-- The token block, rounded for the matrix unit, against the rows of the query weights. -/
def kQuery (x : FVec Ideal S4096x64 .bf16) (v3 : Vec Ideal S32x64 .f32) : FVec Ideal S4096x32 .f32 :=
  matmul dot_S4096x64_S64x32_S4096x32_1_0_0_1_n_n none x
    (transpose S64x32 [1, 0] (truncf .bf16 v3 bitsLt_bf16_f32) transposes_S32x64_p1_0_S64x32)
    (constant S4096x32 .f32 0x00000000#32)

/-- Each row over its floored Euclidean length. -/
def kUnit (v13 : FVec Ideal S4096x32 .f32) : FVec Ideal S4096x32 .f32 :=
  divf v13 (broadcastTo S4096x32
    (maximumf (sqrt (shapeCast S4096x1
        (multiReduction .add [1] S4096 (mulf v13 v13) 0x00000000#32 reduces_S4096x32_S4096 (.inl rfl) rfl)
        shapeCasts_S4096_S4096x1))
      (broadcast S4096x1 (Scalar.ofBits .f32 0x2B8CBCCC#32)))
    broadcasts_S4096x1_S4096x32)

/-- The unit queries against the address rows, over the temperature. -/
def kScore (v21 : FVec Ideal S4096x32 .f32) (v9 : Vec Ideal S64x32 .f32) : FVec Ideal S4096x64 .f32 :=
  divf (matmul dot_S4096x32_S32x64_S4096x64_1_0_0_1_n_n none (truncf .bf16 v21 bitsLt_bf16_f32)
      (transpose S32x64 [1, 0] (truncf .bf16 (shapeCast S64x32 v9 shapeCasts_S64x32_S64x32) bitsLt_bf16_f32)
        transposes_S64x32_p1_0_S32x64)
      (constant S4096x64 .f32 0x00000000#32))
    (broadcast S4096x64 (Scalar.ofBits .f32 0x3E800000#32))

/-- The exponentials of a score block shifted by each row's maximum. -/
def kShiftExp (v26 : FVec Ideal S4096x64 .f32) : FVec Ideal S4096x64 .f32 :=
  exp (subf v26 (broadcastTo S4096x64
    (shapeCast S4096x1 (multiReduction .maximumf [1] S4096 v26 0xFF800000#32 reduces_S4096x64_S4096 (.inl rfl) rfl)
      shapeCasts_S4096_S4096x1)
    broadcasts_S4096x1_S4096x64))

/-- Each row over its sum. -/
def kRowShare (v31 : FVec Ideal S4096x64 .f32) : FVec Ideal S4096x64 .f32 :=
  divf v31 (broadcastTo S4096x64
    (shapeCast S4096x1 (multiReduction .add [1] S4096 v31 0x00000000#32 reduces_S4096x64_S4096 (.inl rfl) rfl)
      shapeCasts_S4096_S4096x1)
    broadcasts_S4096x1_S4096x64)

/-- The first payload is these stages, one after the other. -/
theorem pay4_eq (v0 : Vec Ideal S1x4096x64 .f32) (v3 : Vec Ideal S32x64 .f32) (v9 : Vec Ideal S64x32 .f32) :
    k0_pay4 v0 v3 v9 = kRowShare (kShiftExp (kScore (kUnit (kQuery (k0_pay2 v0) v3)) v9)) := rfl

/-- The write weights scaled row by row by the logistic gate of the gate logits plus the bias. -/
def kGated (v35 : FVec Ideal S4096x64 .f32) (v37 : FVec Ideal S4096x1 .f32) (v38 : Vec Ideal S1x1 .f32) :
    FVec Ideal S4096x64 .f32 :=
  mulf v35 (broadcastTo S4096x64
    (logistic (addf v37 (broadcast S4096x1 (extractAt ![0, 0] v38 inpos_S1x1_p0_0))))
    broadcasts_S4096x1_S4096x64)

/-- The token block against the rows of the value weights. -/
def kValue (v2 : FVec Ideal S4096x64 .bf16) (v6 : FVec Ideal S64x64 .bf16) : FVec Ideal S4096x64 .f32 :=
  matmul dot_S4096x64_S64x64_S4096x64_1_0_0_1_n_n none v2
    (transpose S64x64 [1, 0] v6 transposes_S64x64_p1_0_S64x64) (constant S4096x64 .f32 0x00000000#32)

/-- The weights against the values, contracted over the tokens. -/
def kSlotSum (v44 v46 : FVec Ideal S4096x64 .f32) : FVec Ideal S64x64 .f32 :=
  matmul dot_S4096x64_S4096x64_S64x64_0_0_1_1_n_n none (truncf .bf16 v44 bitsLt_bf16_f32)
    (truncf .bf16 v46 bitsLt_bf16_f32) (constant S64x64 .f32 0x00000000#32)

/-- The weights summed over the tokens, laid out as a column. -/
def kSlotWeight (v44 : FVec Ideal S4096x64 .f32) : FVec Ideal S64x1 .f32 :=
  transpose S64x1 [1, 0]
    (shapeCast S1x64 (multiReduction .add [0] S64 v44 0x00000000#32 reduces_S4096x64_S64 (.inl rfl) rfl)
      shapeCasts_S64_S1x64)
    transposes_S1x64_p1_0_S64x1

/-- The fraction 1 − e^{0 − w} of each slot, as a column. -/
def kFraction (v52 : FVec Ideal S64x1 .f32) : FVec Ideal S64x1 .f32 :=
  subf (broadcast S64x1 (Scalar.ofBits .f32 0x3F800000#32))
    (exp (subf (broadcast S64x1 (Scalar.ofBits .f32 0x00000000#32)) v52))

/-- The stored block blended with the weighted means. -/
def kBlend (v49 : FVec Ideal S64x64 .f32) (v52 : FVec Ideal S64x1 .f32) (v62 : Vec Ideal S1x64x64 .f32) :
    FVec Ideal S1x64x64 .f32 :=
  shapeCast S1x64x64
    (addf
      (mulf (shapeCast S64x64 v62 shapeCasts_S1x64x64_S64x64)
        (broadcastTo S64x64 (subf (broadcast S64x1 (Scalar.ofBits .f32 0x3F800000#32)) (kFraction v52))
          broadcasts_S64x1_S64x64))
      (mulf
        (divf v49 (broadcastTo S64x64 (maximumf v52 (broadcast S64x1 (Scalar.ofBits .f32 0x358637BD#32)))
          broadcasts_S64x1_S64x64))
        (broadcastTo S64x64 (kFraction v52) broadcasts_S64x1_S64x64)))
    shapeCasts_S64x64_S1x64x64

/-- The last payload is these stages, one after the other. -/
theorem pay1_eq (v2 : FVec Ideal S4096x64 .bf16) (v6 : FVec Ideal S64x64 .bf16) (v35 : FVec Ideal S4096x64 .f32)
    (v37 : FVec Ideal S4096x1 .f32) (v38 : Vec Ideal S1x1 .f32) (v62 : Vec Ideal S1x64x64 .f32) :
    k0_pay1 v2 v6 v35 v37 v38 v62
      = kBlend (kSlotSum (kGated v35 v37 v38) (kValue v2 v6)) (kSlotWeight (kGated v35 v37 v38)) v62 := rfl

end Cert.SlotWrite.Ker

end
-- ==== Proof.LibMatmulRows.lean ====
/-
  A rank-2 by rank-2 matrix product read at an index, at the ideal instance.

  For dimension numbers that contract the left operand's axis 1 with the right operand's axis 0 and have no batch
  axis, the entry (r, c) of the product into a zero accumulator is the plain sum over k of a(r, k) * b(k, c) on the
  extended reals; the same for the host's dot_general. The two side facts about the free axes (hl0, hr1) are
  decided once per literal record of dimension numbers.
-/
import Idealize.ShloMosaic.PureOps.Ideal.Laws
import Idealize.ShloMosaic.Lib.ValueIdx

noncomputable section

namespace Idealize.ShloMosaic.MatmulRows

open Idealize.ShloMosaic Idealize.ShloMosaic.ValueIdx

variable {M K N : Nat} {φ₁ φ₂ : FTy}

/-- The operand indices of such a product at output index `i` and contraction position `k` are (i 0, k) and (k, i 1). -/
theorem operand_indices
    (d : DotDims (⟨2, ![M, K]⟩ : Shape) (⟨2, ![K, N]⟩ : Shape) (⟨2, ![M, N]⟩ : Shape))
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 k (i 1) := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact (d.rhsIdx_val_of_single hcr _ _).trans hk
    | ⟨1, _⟩ => exact hr1 _ _

/-- A kernel's matrix product into the zero accumulator, entry by entry. -/
theorem matmul_zero_apply
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 k (i 1)) := by
  rw [Ideal.matmul_constant_zero_apply, ← Equiv.sum_comp (contrEquiv1 d K hrk hs).symm]
  refine Finset.sum_congr rfl fun k _ => ?_
  obtain ⟨el, er⟩ := operand_indices d hcl hcr hrk hs hl0 hr1 i k
  rw [el, er]
  rfl

/-- The same with the factors named: whatever the left operand's row and the right operand's column are known to be. -/
theorem matmul_zero_rows
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) (L R : Fin K → EReal)
    (hl : ∀ k, a (ix2 (i 0) k) = L k) (hr : ∀ k, b (ix2 k (i 1)) = R k) :
    FloatOps.matmul d prec a b (constant (F := Ideal) (⟨2, ![M, N]⟩ : Shape) .f32 0x00000000#32) i
      = ∑ k : Fin K, L k * R k :=
  (matmul_zero_apply d prec hcl hcr hrk hs hl0 hr1 a b i).trans
    (Finset.sum_congr rfl fun k _ => by rw [hl k, hr k])

/-- The host's dot_general, entry by entry: the same sum. -/
theorem dotGeneral_apply
    (d : DotDims (⟨2, ![M, K]⟩ : Shape) (⟨2, ![K, N]⟩ : Shape) (⟨2, ![M, N]⟩ : Shape)) (prec : Option ContractPrecision)
    (sched : HostSchedule)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.dotGeneral d prec sched a b i = ∑ k : Fin K, a (ix2 (i 0) k) * b (ix2 k (i 1)) := by
  rw [Ideal.dotGeneral_apply, ← Equiv.sum_comp (contrEquiv1 d K hrk hs).symm]
  refine Finset.sum_congr rfl fun k _ => ?_
  obtain ⟨el, er⟩ := operand_indices d hcl hcr hrk hs hl0 hr1 i k
  rw [el, er]
  rfl

end Idealize.ShloMosaic.MatmulRows

end
-- ==== Proof.LibMatmulCols.lean ====
/-
  A product of two rank-2 arrays contracting the FIRST axis of both, read at an index, at the ideal instance.

  For dimension numbers that contract the left operand's axis 0 with the right operand's axis 0 and have no batch
  axis (the transposed-left product a (R x M), b (R x N) -> M x N), the entry (i, j) of the product into a zero
  accumulator is the plain sum over r of a (r, i) * b (r, j) on the extended reals. The two side facts about the free
  axes (hl1, hr1) are decided once per literal record of dimension numbers.
-/
import Idealize.ShloMosaic.PureOps.Ideal.Laws
import Idealize.ShloMosaic.Lib.ValueIdx

noncomputable section

namespace Idealize.ShloMosaic.MatmulCols

open Idealize.ShloMosaic Idealize.ShloMosaic.ValueIdx

variable {R M N : Nat} {φ₁ φ₂ : FTy}

/-- The operand indices of such a product at output index i and contraction position r are (r, i 0) and (r, i 1). -/
theorem operand_indices
    (d : DotDims (⟨2, ![R, M]⟩ : Shape) (⟨2, ![R, N]⟩ : Shape) (⟨2, ![M, N]⟩ : Shape))
    (hcl : d.lhsContracting = [0]) (hcr : d.rhsContracting = [0])
    (hrk : d.contr.rank = 1) (hs : d.contr.size ⟨0, by omega⟩ = R)
    (hl1 : ∀ i q, (d.lhsIdx i q 1).val = (i 0).val) (hr1 : ∀ i q, (d.rhsIdx i q 1).val = (i 1).val)
    (i : (⟨2, ![M, N]⟩ : Shape).Idx) (r : Fin R) :
    d.lhsIdx i ((contrEquiv1 d R hrk hs).symm r) = ix2 r (i 0)
    ∧ d.rhsIdx i ((contrEquiv1 d R hrk hs).symm r) = ix2 r (i 1) := by
  have hk := contrEquiv1_symm_val d R hrk hs r
  constructor
  · funext ax
    apply Fin.ext
    match ax with
    | ⟨0, _⟩ => exact (d.lhsIdx_val_of_single hcl _ _).trans hk
    | ⟨1, _⟩ => exact hl1 _ _
  · funext ax
    apply Fin.ext
    match ax with
    | ⟨0, _⟩ => exact (d.rhsIdx_val_of_single hcr _ _).trans hk
    | ⟨1, _⟩ => exact hr1 _ _

/-- A kernel's transposed-left matrix product into the zero accumulator, entry by entry. -/
theorem matmul_zero_apply
    (d : DotDims (⟨2, ![R, M]⟩ : Shape) (⟨2, ![R, N]⟩ : Shape) (⟨2, ![M, N]⟩ : Shape)) (prec : Option ContractPrecision)
    (hcl : d.lhsContracting = [0]) (hcr : d.rhsContracting = [0])
    (hrk : d.contr.rank = 1) (hs : d.contr.size ⟨0, by omega⟩ = R)
    (hl1 : ∀ i q, (d.lhsIdx i q 1).val = (i 0).val) (hr1 : ∀ i q, (d.rhsIdx i q 1).val = (i 1).val)
    (a : FVec Ideal (⟨2, ![R, M]⟩ : Shape) φ₁) (b : FVec Ideal (⟨2, ![R, N]⟩ : Shape) φ₂)
    (i : (⟨2, ![M, N]⟩ : Shape).Idx) :
    FloatOps.matmul d prec a b (constant (F := Ideal) (⟨2, ![M, N]⟩ : Shape) .f32 0x00000000#32) i
      = ∑ r : Fin R, a (ix2 r (i 0)) * b (ix2 r (i 1)) := by
  rw [Ideal.matmul_constant_zero_apply, ← Equiv.sum_comp (contrEquiv1 d R hrk hs).symm]
  refine Finset.sum_congr rfl fun r _ => ?_
  obtain ⟨el, er⟩ := operand_indices d hcl hcr hrk hs hl1 hr1 i r
  rw [el, er]
  rfl

end Idealize.ShloMosaic.MatmulCols

end
-- ==== Proof.LibKeepdims.lean ====
/-
  The two "keepdims" column forms of a row reduction's result, read at an index.

  A length-a vector cast to an a by 1 column reads, at (i, u), the vector at i; an a by 1 column broadcast to a by b
  reads, at (p, c), the column at p. Together: a per-row quantity (a row's maximum, a row's sum) spread back over the
  row's entries.
-/
import Idealize.ShloMosaic.Lib.Pipeline.Value
import Idealize.ShloMosaic.Lib.ValueIdx

namespace Idealize.ShloMosaic.Keepdims

open Idealize.ShloMosaic Idealize.ShloMosaic.ValueIdx Idealize.ShloMosaic.Pipeline

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a per-row quantity spread over the row. -/
theorem column_spread {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Idealize.ShloMosaic.Keepdims
-- ==== Proof.LibRowMax.lean ====
/-
  A row's maximum read at an index, at the ideal instance.

  For an a by b array, a kernel's reduction with maximum along axis 1 holds, at row i, the fold of max over the
  column coordinate j of the entries at (i, j), started from the accumulator's value. The fold is over the whole
  finite type of columns, in no particular order.
-/
import Idealize.ShloMosaic.PureOps.Ideal.Laws
import Idealize.ShloMosaic.Lib.ValueIdx

noncomputable section

namespace Idealize.ShloMosaic.RowMax

open Idealize.ShloMosaic Idealize.ShloMosaic.ValueIdx

variable {a b : ℕ} {φ : FTy}

/-- The index a reduction along axis 1 puts back: row i, column j. -/
theorem lift_row (h : (⟨2, ![a, b]⟩ : Shape).Reduces [(1 : Fin 2)] ⟨1, ![a]⟩) (i : Fin a) (j : Fin b) :
    h.lift (ix1 i) j = ix2 i j := by
  funext ax
  apply Fin.ext
  match ax with
  | ⟨0, _⟩ => rfl
  | ⟨1, _⟩ => rfl

/-- A row's maximum, from the accumulator's value. -/
theorem row_max_apply (v : FVec Ideal (⟨2, ![a, b]⟩ : Shape) φ) (acc : BitVec φ.bits)
    (h : (⟨2, ![a, b]⟩ : Shape).Reduces [(1 : Fin 2)] ⟨1, ![a]⟩) (hφ : FKind.Formats φ)
    (hacc : acc = FKind.maximumf.neutral φ hφ) (i : Fin a) :
    multiReduction .maximumf [(1 : Fin 2)] ⟨1, ![a]⟩ v acc h hφ hacc (ix1 i)
      = (Finset.univ : Finset (Fin b)).fold max (Ideal.ofBits φ acc) (fun j => v (ix2 i j)) := by
  rw [Ideal.multiReduction_maximumf_single]
  have e : (v ∘ h.lift (ix1 i)) = fun j : Fin b => v (ix2 i j) := funext fun j => congrArg v (lift_row h i j)
  rw [e]
  rfl

end Idealize.ShloMosaic.RowMax

end
-- ==== Proof.KerIndex.lean ====
/-
  Each stage of the kernel body read at an index, at the ideal instance.

  Over a variable operand each stage is a function of SlotSpec of the operand seen as a table: a matrix product
  into the zero accumulator is a plain sum over the contracted coordinate (the weights enter transposed, so the sum
  runs over rows of the weight table), a row reduction followed by the cast to a column and the broadcast back over
  the row is the row's sum or maximum at every entry of the row, a change of float format is the identity.
-/
import proofs.«174082_j2714419331664_1_alg».proof.Proof.KerStages
import proofs.«174082_j2714419331664_1_alg».proof.Proof.SlotArrays
import proofs.«174082_j2714419331664_1_alg».proof.Proof.LibMatmulRows
import proofs.«174082_j2714419331664_1_alg».proof.Proof.LibMatmulCols
import proofs.«174082_j2714419331664_1_alg».proof.Proof.LibKeepdims
import proofs.«174082_j2714419331664_1_alg».proof.Proof.LibReduceAt
import proofs.«174082_j2714419331664_1_alg».proof.Proof.LibRowMax
import Idealize.ShloMosaic.Lib.ValueLayout
import Idealize.ShloMosaic.Lib.Pipeline.Value

noncomputable section

namespace Cert.SlotWrite.Ker

open Cert.KernelIdeal Cert.KernelIdeal.Gen Idealize.ShloMosaic Idealize.ShloMosaic.ValueIdx Cert.SlotWrite

/-! ### The free axes of the five products -/

/-- In the query projection the left operand's free axis is the result's axis 0, -/
theorem freeQ_l (i : S4096x32.Idx) (q : dot_S4096x64_S64x32_S4096x32_1_0_0_1_n_n.contr.Idx) : (dot_S4096x64_S64x32_S4096x32_1_0_0_1_n_n.lhsIdx i q 0).val = (i 0).val := by
  unfold DotDims.lhsIdx
  rw [dif_neg (show ¬(0 : Fin S4096x64.rank) ∈ dot_S4096x64_S64x32_S4096x32_1_0_0_1_n_n.lhsBatch by decide),
    dif_pos (show (0 : Fin S4096x64.rank) ∈ dot_S4096x64_S64x32_S4096x32_1_0_0_1_n_n.lhsNonContracting by decide)]
  rfl
/-- and the right operand's free axis is the result's axis 1. -/
theorem freeQ_r (i : S4096x32.Idx) (q : dot_S4096x64_S64x32_S4096x32_1_0_0_1_n_n.contr.Idx) : (dot_S4096x64_S64x32_S4096x32_1_0_0_1_n_n.rhsIdx i q 1).val = (i 1).val := by
  unfold DotDims.rhsIdx
  rw [dif_neg (show ¬(1 : Fin S64x32.rank) ∈ dot_S4096x64_S64x32_S4096x32_1_0_0_1_n_n.rhsBatch by decide),
    dif_pos (show (1 : Fin S64x32.rank) ∈ dot_S4096x64_S64x32_S4096x32_1_0_0_1_n_n.rhsNonContracting by decide)]
  rfl
/-- In the scores the left operand's free axis is the result's axis 0, -/
theorem freeS_l (i : S4096x64.Idx) (q : dot_S4096x32_S32x64_S4096x64_1_0_0_1_n_n.contr.Idx) : (dot_S4096x32_S32x64_S4096x64_1_0_0_1_n_n.lhsIdx i q 0).val = (i 0).val := by
  unfold DotDims.lhsIdx
  rw [dif_neg (show ¬(0 : Fin S4096x32.rank) ∈ dot_S4096x32_S32x64_S4096x64_1_0_0_1_n_n.lhsBatch by decide),
    dif_pos (show (0 : Fin S4096x32.rank) ∈ dot_S4096x32_S32x64_S4096x64_1_0_0_1_n_n.lhsNonContracting by decide)]
  rfl
/-- and the right operand's free axis is the result's axis 1. -/
theorem freeS_r (i : S4096x64.Idx) (q : dot_S4096x32_S32x64_S4096x64_1_0_0_1_n_n.contr.Idx) : (dot_S4096x32_S32x64_S4096x64_1_0_0_1_n_n.rhsIdx i q 1).val = (i 1).val := by
  unfold DotDims.rhsIdx
  rw [dif_neg (show ¬(1 : Fin S32x64.rank) ∈ dot_S4096x32_S32x64_S4096x64_1_0_0_1_n_n.rhsBatch by decide),
    dif_pos (show (1 : Fin S32x64.rank) ∈ dot_S4096x32_S32x64_S4096x64_1_0_0_1_n_n.rhsNonContracting by decide)]
  rfl
/-- In the gate logits the left operand's free axis is the result's axis 0, -/
theorem freeG_l (i : S4096x1.Idx) (q : dot_S4096x64_S64x1_S4096x1_1_0_0_1_n_n.contr.Idx) : (dot_S4096x64_S64x1_S4096x1_1_0_0_1_n_n.lhsIdx i q 0).val = (i 0).val := by
  unfold DotDims.lhsIdx
  rw [dif_neg (show ¬(0 : Fin S4096x64.rank) ∈ dot_S4096x64_S64x1_S4096x1_1_0_0_1_n_n.lhsBatch by decide),
    dif_pos (show (0 : Fin S4096x64.rank) ∈ dot_S4096x64_S64x1_S4096x1_1_0_0_1_n_n.lhsNonContracting by decide)]
  rfl
/-- and the right operand's free axis is the result's axis 1. -/
theorem freeG_r (i : S4096x1.Idx) (q : dot_S4096x64_S64x1_S4096x1_1_0_0_1_n_n.contr.Idx) : (dot_S4096x64_S64x1_S4096x1_1_0_0_1_n_n.rhsIdx i q 1).val = (i 1).val := by
  unfold DotDims.rhsIdx
  rw [dif_neg (show ¬(1 : Fin S64x1.rank) ∈ dot_S4096x64_S64x1_S4096x1_1_0_0_1_n_n.rhsBatch by decide),
    dif_pos (show (1 : Fin S64x1.rank) ∈ dot_S4096x64_S64x1_S4096x1_1_0_0_1_n_n.rhsNonContracting by decide)]
  rfl
/-- In the value projection the left operand's free axis is the result's axis 0, -/
theorem freeV_l (i : S4096x64.Idx) (q : dot_S4096x64_S64x64_S4096x64_1_0_0_1_n_n.contr.Idx) : (dot_S4096x64_S64x64_S4096x64_1_0_0_1_n_n.lhsIdx i q 0).val = (i 0).val := by
  unfold DotDims.lhsIdx
  rw [dif_neg (show ¬(0 : Fin S4096x64.rank) ∈ dot_S4096x64_S64x64_S4096x64_1_0_0_1_n_n.lhsBatch by decide),
    dif_pos (show (0 : Fin S4096x64.rank) ∈ dot_S4096x64_S64x64_S4096x64_1_0_0_1_n_n.lhsNonContracting by decide)]
  rfl
/-- and the right operand's free axis is the result's axis 1. -/
theorem freeV_r (i : S4096x64.Idx) (q : dot_S4096x64_S64x64_S4096x64_1_0_0_1_n_n.contr.Idx) : (dot_S4096x64_S64x64_S4096x64_1_0_0_1_n_n.rhsIdx i q 1).val = (i 1).val := by
  unfold DotDims.rhsIdx
  rw [dif_neg (show ¬(1 : Fin S64x64.rank) ∈ dot_S4096x64_S64x64_S4096x64_1_0_0_1_n_n.rhsBatch by decide),
    dif_pos (show (1 : Fin S64x64.rank) ∈ dot_S4096x64_S64x64_S4096x64_1_0_0_1_n_n.rhsNonContracting by decide)]
  rfl
/-- In the contraction over the tokens both operands' free axis is axis 1: the left one's is the result's axis 0, -/
theorem freeU_l (i : S64x64.Idx) (q : dot_S4096x64_S4096x64_S64x64_0_0_1_1_n_n.contr.Idx) : (dot_S4096x64_S4096x64_S64x64_0_0_1_1_n_n.lhsIdx i q 1).val = (i 0).val := by
  unfold DotDims.lhsIdx
  rw [dif_neg (show ¬(1 : Fin S4096x64.rank) ∈ dot_S4096x64_S4096x64_S64x64_0_0_1_1_n_n.lhsBatch by decide),
    dif_pos (show (1 : Fin S4096x64.rank) ∈ dot_S4096x64_S4096x64_S64x64_0_0_1_1_n_n.lhsNonContracting by decide)]
  rfl
/-- the right one's the result's axis 1. -/
theorem freeU_r (i : S64x64.Idx) (q : dot_S4096x64_S4096x64_S64x64_0_0_1_1_n_n.contr.Idx) : (dot_S4096x64_S4096x64_S64x64_0_0_1_1_n_n.rhsIdx i q 1).val = (i 1).val := by
  unfold DotDims.rhsIdx
  rw [dif_neg (show ¬(1 : Fin S4096x64.rank) ∈ dot_S4096x64_S4096x64_S64x64_0_0_1_1_n_n.rhsBatch by decide),
    dif_pos (show (1 : Fin S4096x64.rank) ∈ dot_S4096x64_S4096x64_S64x64_0_0_1_1_n_n.rhsNonContracting by decide)]
  rfl

/-! ### The stages -/

/-- The token block: the [1, 4096, 64] block without its unit axis. -/
theorem tokens_at (v0 : Vec Ideal S1x4096x64 .f32) (t : Fin 4096) (d : Fin 64) :
    k0_pay2 v0 (ix2 t d) = v0 (ix3 (0 : Fin 1) t d) :=
  shapeCast_1ab_ab_apply v0 shapeCasts_S1x4096x64_S4096x64 t d

/-- The query projection: tokens against the rows of the query weights. -/
theorem kQuery_at (x : FVec Ideal S4096x64 .bf16) (v3 : Vec Ideal S32x64 .f32) (t : Fin 4096) (a : Fin 32) :
    kQuery x v3 (ix2 t a) = ∑ d : Fin 64, x (ix2 t d) * v3 (ix2 a d) :=
  MatmulRows.matmul_zero_rows dot_S4096x64_S64x32_S4096x32_1_0_0_1_n_n none rfl rfl rfl rfl freeQ_l freeQ_r x _
    (ix2 t a) (fun d => x (ix2 t d)) (fun d => v3 (ix2 a d)) (fun _ => rfl)
    (fun k => transpose_ix2_apply _ transposes_S32x64_p1_0_S64x32 k a)

/-- A row over its floored length. -/
theorem kUnit_at (v13 : FVec Ideal S4096x32 .f32) (t : Fin 4096) (a : Fin 32) :
    kUnit v13 (ix2 t a) = unitRow (table v13) t a := by
  show Ideal.div (v13 (ix2 t a)) _ = Ideal.div (v13 (ix2 t a)) _
  refine congrArg _ ((Keepdims.broadcastTo_a1_ab_apply _ broadcasts_S4096x1_S4096x32 t a).trans ?_)
  refine congrArg (fun z => max (Ideal.sqrt z) lenFloor)
    ((Keepdims.shapeCast_a_a1_apply _ shapeCasts_S4096_S4096x1 t (0 : Fin 1)).trans ?_)
  exact ReduceAt.row_sum_apply (mulf v13 v13) _ reduces_S4096x32_S4096 _ _ t

/-- The scores: unit queries against the address rows, over the temperature. -/
theorem kScore_at (v21 : FVec Ideal S4096x32 .f32) (v9 : Vec Ideal S64x32 .f32) (t : Fin 4096) (s : Fin 64) :
    kScore v21 v9 (ix2 t s) = score (table v21) (table v9) t s :=
  congrArg (fun z => Ideal.div z temperature)
    (MatmulRows.matmul_zero_rows dot_S4096x32_S32x64_S4096x64_1_0_0_1_n_n none rfl rfl rfl rfl freeS_l freeS_r _ _
      (ix2 t s) (fun a => v21 (ix2 t a)) (fun a => v9 (ix2 s a)) (fun _ => rfl)
      (fun k => (transpose_ix2_apply _ transposes_S64x32_p1_0_S32x64 k s).trans
        (congrFun (shapeCast_self v9 shapeCasts_S64x32_S64x32) (ix2 s k))))

/-- The exponential of a score shifted by its row's maximum. -/
theorem kShiftExp_at (v26 : FVec Ideal S4096x64 .f32) (t : Fin 4096) (s : Fin 64) :
    kShiftExp v26 (ix2 t s) = Ideal.exp (table v26 t s - rowMax (table v26) t) :=
  congrArg (fun z => Ideal.exp (v26 (ix2 t s) - z))
    ((Keepdims.column_spread _ shapeCasts_S4096_S4096x1 broadcasts_S4096x1_S4096x64 t s).trans
      (RowMax.row_max_apply v26 _ reduces_S4096x64_S4096 _ _ t))

/-- An entry over its row's sum. -/
theorem kRowShare_at (v31 : FVec Ideal S4096x64 .f32) (t : Fin 4096) (s : Fin 64) :
    kRowShare v31 (ix2 t s) = Ideal.div (table v31 t s) (∑ s' : Fin 64, table v31 t s') :=
  congrArg (Ideal.div (v31 (ix2 t s)))
    ((Keepdims.column_spread _ shapeCasts_S4096_S4096x1 broadcasts_S4096x1_S4096x64 t s).trans
      (ReduceAt.row_sum_apply v31 _ reduces_S4096x64_S4096 _ _ t))

/-- The two together are the softmax of the row. -/
theorem kSoftmax_at (v26 : FVec Ideal S4096x64 .f32) (t : Fin 4096) (s : Fin 64) :
    kRowShare (kShiftExp v26) (ix2 t s) = softmax (table v26) t s := by
  simp only [kRowShare_at, table, kShiftExp_at, softmax]

/-- The bias: the one entry of the [1, 1] block. -/
theorem bias_at (v38 : Vec Ideal S1x1 .f32) :
    extractAt ![0, 0] v38 inpos_S1x1_p0_0 = v38 (ix2 (0 : Fin 1) (0 : Fin 1)) :=
  congrArg v38 (by idx_rfl)

/-- A write weight scaled by its token's gate. -/
theorem kGated_at (v35 : FVec Ideal S4096x64 .f32) (v37 : FVec Ideal S4096x1 .f32) (v38 : Vec Ideal S1x1 .f32)
    (t : Fin 4096) (s : Fin 64) :
    kGated v35 v37 v38 (ix2 t s)
      = v35 (ix2 t s) * Ideal.logistic (v37 (ix2 t (0 : Fin 1)) + v38 (ix2 (0 : Fin 1) (0 : Fin 1))) :=
  congrArg (v35 (ix2 t s) * ·)
    ((Keepdims.broadcastTo_a1_ab_apply _ broadcasts_S4096x1_S4096x64 t s).trans
      (congrArg (fun z => Ideal.logistic (v37 (ix2 t (0 : Fin 1)) + z)) (bias_at v38)))

/-- The value projection: tokens against the rows of the value weights. -/
theorem kValue_at (v2 : FVec Ideal S4096x64 .bf16) (v6 : FVec Ideal S64x64 .bf16) (t : Fin 4096) (e : Fin 64) :
    kValue v2 v6 (ix2 t e) = ∑ d : Fin 64, v2 (ix2 t d) * v6 (ix2 e d) :=
  MatmulRows.matmul_zero_rows dot_S4096x64_S64x64_S4096x64_1_0_0_1_n_n none rfl rfl rfl rfl freeV_l freeV_r v2 _
    (ix2 t e) (fun d => v2 (ix2 t d)) (fun d => v6 (ix2 e d)) (fun _ => rfl)
    (fun k => transpose_ix2_apply v6 transposes_S64x64_p1_0_S64x64 k e)

/-- The gate logits: tokens against the one row of the gate weights. -/
theorem logits_at (v0 : Vec Ideal S1x4096x64 .f32) (v7 : Vec Ideal S1x64 .f32) (t : Fin 4096) :
    k0_pay5 v0 v7 (ix2 t (0 : Fin 1)) = ∑ d : Fin 64, v0 (ix3 (0 : Fin 1) t d) * v7 (ix2 (0 : Fin 1) d) :=
  MatmulRows.matmul_zero_rows dot_S4096x64_S64x1_S4096x1_1_0_0_1_n_n none rfl rfl rfl rfl freeG_l freeG_r (k0_pay2 v0) _
    (ix2 t (0 : Fin 1)) (fun d => v0 (ix3 (0 : Fin 1) t d)) (fun d => v7 (ix2 (0 : Fin 1) d)) (fun d => tokens_at v0 t d)
    (fun k => transpose_ix2_apply _ transposes_S1x64_p1_0_S64x1 k (0 : Fin 1))

/-- The slots' weighted sums: weights against values, contracted over the tokens. -/
theorem kSlotSum_at (v44 v46 : FVec Ideal S4096x64 .f32) (s e : Fin 64) :
    kSlotSum v44 v46 (ix2 s e) = ∑ t : Fin 4096, v44 (ix2 t s) * v46 (ix2 t e) :=
  MatmulCols.matmul_zero_apply dot_S4096x64_S4096x64_S64x64_0_0_1_1_n_n none rfl rfl rfl rfl freeU_l freeU_r
    (truncf .bf16 v44 bitsLt_bf16_f32) (truncf .bf16 v46 bitsLt_bf16_f32) (ix2 s e)

/-- The slots' total weights: the column sums, read in the column layout. -/
theorem kSlotWeight_at (v44 : FVec Ideal S4096x64 .f32) (s : Fin 64) :
    kSlotWeight v44 (ix2 s (0 : Fin 1)) = ∑ t : Fin 4096, v44 (ix2 t s) :=
  (transpose_ix2_apply _ transposes_S1x64_p1_0_S64x1 s (0 : Fin 1)).trans
    ((shapeCast_a_1a_apply _ shapeCasts_S64_S1x64 (0 : Fin 1) s).trans
      (ReduceAt.col_sum_apply v44 _ reduces_S4096x64_S64 _ _ s))

/-- The fraction 1 − e^{−w}: zero minus w is −w on the extended reals. -/
theorem kFraction_at (v52 : FVec Ideal S64x1 .f32) (s : Fin 64) :
    kFraction v52 (ix2 s (0 : Fin 1)) = unity - Ideal.exp (-(v52 (ix2 s (0 : Fin 1)))) := by
  have h : Ideal.ofBits .f32 0x00000000#32 - v52 (ix2 s (0 : Fin 1)) = -(v52 (ix2 s (0 : Fin 1))) := by
    rw [Ideal.ofBits_zero_f32, sub_eq_add_neg, zero_add]
  exact congrArg (fun z => unity - Ideal.exp z) h

/-- The blend at (0, s, e). -/
theorem kBlend_at (v49 : FVec Ideal S64x64 .f32) (v52 : FVec Ideal S64x1 .f32) (v62 : Vec Ideal S1x64x64 .f32)
    (s e : Fin 64) :
    kBlend v49 v52 v62 (ix3 (0 : Fin 1) s e)
      = v62 (ix3 (0 : Fin 1) s e) * (unity - kFraction v52 (ix2 s (0 : Fin 1)))
        + Ideal.div (v49 (ix2 s e)) (max (v52 (ix2 s (0 : Fin 1))) weightFloor) * kFraction v52 (ix2 s (0 : Fin 1)) :=
  (shapeCast_ab_1ab_apply _ shapeCasts_S64x64_S1x64x64 (0 : Fin 1) s e).trans
    (congrArg₂ (· + ·)
      (congrArg₂ (· * ·) (shapeCast_1ab_ab_apply v62 shapeCasts_S1x64x64_S64x64 s e)
        (Keepdims.broadcastTo_a1_ab_apply _ broadcasts_S64x1_S64x64 s e))
      (congrArg₂ (· * ·)
        (congrArg (Ideal.div (v49 (ix2 s e))) (Keepdims.broadcastTo_a1_ab_apply _ broadcasts_S64x1_S64x64 s e))
        (Keepdims.broadcastTo_a1_ab_apply _ broadcasts_S64x1_S64x64 s e)))

end Cert.SlotWrite.Ker

end
-- ==== Proof.KerBody.lean ====
/-
  What the kernel body stores, from the blocks it loads.

  With the token block x (one batch row), the stored memory block, the unit addresses, the three weight tables and
  the bias as the body loads them, the block it stores holds at (0, s, e) the specified slot update of those tables:
  the first payload is the softmax of the scores, the gate logits are the tokens against the one row of gate
  weights, the gated weights are the specified write weights, and the last payload blends the stored block with
  the slots' weighted means.
-/
import proofs.«174082_j2714419331664_1_alg».proof.Proof.KerIndex

noncomputable section

namespace Cert.SlotWrite.Ker

open Cert.KernelIdeal Cert.KernelIdeal.Gen Idealize.ShloMosaic Idealize.ShloMosaic.ValueIdx Cert.SlotWrite

variable (v0 : Vec Ideal S1x4096x64 .f32) (v62 : Vec Ideal S1x64x64 .f32) (v9 : Vec Ideal S64x32 .f32)
  (v3 : Vec Ideal S32x64 .f32) (v5 : Vec Ideal S64x64 .f32) (v7 : Vec Ideal S1x64 .f32) (v38 : Vec Ideal S1x1 .f32)

/-- The projected queries, as a table. -/
theorem query_table : table (kQuery (k0_pay2 v0) v3) = proj (slab v0 (0 : Fin 1)) (table v3) :=
  funext fun t => funext fun a => (kQuery_at (k0_pay2 v0) v3 t a).trans
    (Finset.sum_congr rfl fun d _ => congrArg (· * v3 (ix2 a d)) (tokens_at v0 t d))

/-- The first payload: the softmax of the scores of the unit queries against the loaded addresses. -/
theorem weights_table :
    table (k0_pay4 v0 v3 v9)
      = softmax (score (unitRow (proj (slab v0 (0 : Fin 1)) (table v3))) (table v9)) := by
  have h1 : table (kRowShare (kShiftExp (kScore (kUnit (kQuery (k0_pay2 v0) v3)) v9)))
      = softmax (table (kScore (kUnit (kQuery (k0_pay2 v0) v3)) v9)) :=
    funext fun t => funext fun s => kSoftmax_at _ t s
  have h2 : table (kScore (kUnit (kQuery (k0_pay2 v0) v3)) v9)
      = score (table (kUnit (kQuery (k0_pay2 v0) v3))) (table v9) :=
    funext fun t => funext fun s => kScore_at _ v9 t s
  have h3 : table (kUnit (kQuery (k0_pay2 v0) v3)) = unitRow (table (kQuery (k0_pay2 v0) v3)) :=
    funext fun t => funext fun a => kUnit_at _ t a
  rw [pay4_eq, h1, h2, h3, query_table]

/-- The gated weights are the specified write weights. -/
theorem gated_table :
    table (kGated (k0_pay4 v0 v3 v9) (k0_pay5 v0 v7) v38)
      = writeWeight (slab v0 (0 : Fin 1)) (table v3) (table v9) (onlyRow v7) (v38 (ix2 (0 : Fin 1) (0 : Fin 1))) := by
  funext t s
  show kGated (k0_pay4 v0 v3 v9) (k0_pay5 v0 v7) v38 (ix2 t s) = _
  rw [kGated_at, logits_at]
  show table (k0_pay4 v0 v3 v9) t s * _ = _
  rw [weights_table]
  rfl

/-- The value projections, as a table. -/
theorem value_table : table (kValue (k0_pay2 v0) (k0_pay3 v5)) = proj (slab v0 (0 : Fin 1)) (table v5) :=
  funext fun t => funext fun e => (kValue_at (k0_pay2 v0) (k0_pay3 v5) t e).trans
    (Finset.sum_congr rfl fun d _ => congrArg (· * v5 (ix2 e d)) (tokens_at v0 t d))

/-- A slot's total weight, in the specification's words. -/
theorem slotWeight_of (w : FVec Ideal S4096x64 .f32) (s : Fin 64) :
    kSlotWeight w (ix2 s (0 : Fin 1)) = slotWeight (table w) s := kSlotWeight_at w s

/-- A slot's weighted sum, in the specification's words. -/
theorem slotSum_of (w v : FVec Ideal S4096x64 .f32) (s e : Fin 64) :
    kSlotSum w v (ix2 s e) = slotSum (table w) (table v) s e := kSlotSum_at w v s e

/-- The stored block at (0, s, e): the specified slot update of the loaded blocks. -/
theorem block_at (s e : Fin 64) :
    k0_pay1 (k0_pay2 v0) (k0_pay3 v5) (k0_pay4 v0 v3 v9) (k0_pay5 v0 v7) v38 v62 (ix3 (0 : Fin 1) s e)
      = slotUpdate (slab v0 (0 : Fin 1)) (slab v62 (0 : Fin 1)) (table v9) (table v3) (table v5) (onlyRow v7)
          (v38 (ix2 (0 : Fin 1) (0 : Fin 1))) s e := by
  rw [pay1_eq, kBlend_at, kFraction_at, slotWeight_of, slotSum_of, gated_table, value_table]
  rfl

end Cert.SlotWrite.Ker

end
-- ==== Proof.KerHost.lean ====
/-
  What the region finds in the two arrays the host computes before it.

  The kernel's program scales the slot addresses to unit length on the host — the same operations, in the same
  order, as the reference's own scaling of the addresses, so the array the region finds is that stage of the
  reference applied to the address argument, and reads at (s, a) as the specified unit row — and reshapes the one
  bias to a [1, 1] array, whose one entry is the bias.
-/
import proofs.«174082_j2714419331664_1_alg».proof.Proof.Gen.KernelIdeal.Value
import proofs.«174082_j2714419331664_1_alg».proof.Proof.RefScores
import Idealize.ShloMosaic.Lib.StableHlo.Run
import Idealize.ShloMosaic.Lib.ValueLayout

noncomputable section

namespace Cert.SlotWrite.Ker

open Cert.KernelIdeal Cert.KernelIdeal.Gen Idealize.ShloMosaic Idealize.ShloMosaic.TcCoe Idealize.SL.Sem
open Idealize.ShloMosaic.ValueIdx Cert.SlotWrite

variable (m : (ℓ : Loc nD τ sig) → Buf (Elt Ideal) ℓ)

/-- The unit addresses as the region finds them: the reference's scaling stage of the address argument. -/
theorem addr_entry (c : Dev nD) :
    (V m c main_v4 : S64x32.Idx → EReal)
      = Cert.ReferenceIdeal.Read.val_main_v10 (F := Ideal) (m ((c : Thread nD τ).loc main_arg1)) := by
  dsimp only [Gen.V]
  simp only [Gen.hostOps0, Gen.hostOps0_1, List.flatten_cons, List.flatten_nil, List.append_nil, List.cons_append,
    List.nil_append]
  after_results
  rfl

/-- Read at (s, a): address row s over its floored length. -/
theorem addr_at (c : Dev nD) (s : Fin 64) (a : Fin 32) :
    (V m c main_v4 : S64x32.Idx → EReal) (ix2 s a)
      = unitRow (table (m ((c : Thread nD τ).loc main_arg1) : (⟨2, ![64, 32]⟩ : Shape).Idx → EReal)) s a := by
  rw [addr_entry]
  exact Ref.unitAddr_at _ s a

/-- The bias as the region finds it: the [1] argument reshaped to [1, 1]. -/
theorem bias_entry (c : Dev nD) :
    (V m c main_v5 : S1x1.Idx → EReal)
      = shapeCast S1x1 (m ((c : Thread nD τ).loc main_arg6) : S1.Idx → EReal) shapeCasts_S1_S1x1 := by
  dsimp only [Gen.V]
  simp only [Gen.hostOps0, Gen.hostOps0_1, List.flatten_cons, List.flatten_nil, List.append_nil, List.cons_append,
    List.nil_append]
  after_results
  rfl

/-- Its one entry is the bias. -/
theorem bias_entry_at (c : Dev nD) :
    (V m c main_v5 : S1x1.Idx → EReal) (ix2 (0 : Fin 1) (0 : Fin 1))
      = (m ((c : Thread nD τ).loc main_arg6) : S1.Idx → EReal) (ix1 (0 : Fin 1)) := by
  rw [bias_entry]
  exact shapeCast_a_1a_apply _ shapeCasts_S1_S1x1 (0 : Fin 1) (0 : Fin 1)

end Cert.SlotWrite.Ker

end
-- ==== Proof.KerBlocks.lean ====
/-
  From the blocks to the whole result array.

  The grid has one point per batch row. At point t the token window and the stored-memory window hold row t of their
  arrays, the five small windows hold their whole arrays, and the output window's block is row t of the result. So
  what point t writes back — the body's stored block of the blocks it loaded — is row t of the specified new memory of
  the argument arrays; the 64 rows cover the result array, which therefore ends holding that function whole.
-/
import proofs.«174082_j2714419331664_1_alg».proof.Proof.KerBody
import proofs.«174082_j2714419331664_1_alg».proof.Proof.KerHost

noncomputable section

namespace Cert.SlotWrite.Ker

open Cert.KernelIdeal Cert.KernelIdeal.Gen Idealize.ShloMosaic Idealize.ShloMosaic.TcCoe Idealize.SL.Sem
open Idealize.ShloMosaic.ValueIdx Cert.SlotWrite
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- The specified new memory of the argument arrays as core c holds them at launch. -/
def result (c : Dev nD) : S64x64x64.Idx → EReal :=
  newMemory (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6))

/-- The batch row of grid point t. -/
def row (t : Fin cfg0.N) : Fin 64 := Fin.cast N_0 t

/-- The three windows that move with the grid sit at block (t, 0, 0), decided over the 64 points. -/
theorem moving : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_7.index t (0 : Fin 3) = t.val ∧ win0_7.index t (1 : Fin 3) = 0 ∧ win0_7.index t (2 : Fin 3) = 0 :=
  (by decide +kernel : ∀ t : Fin grid0.N, _)

/-- The five resident windows sit at block (0, 0) at every point. -/
theorem resident : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-! ### Each window's block at point t, read where its rectangle says -/

theorem tokens_block (c : Dev nD) (t : Fin cfg0.N) (t' : Fin 4096) (d : Fin 64) :
    iblk m c 0 t (ix3 (0 : Fin 1) t' d)
      = (m ((c : Thread nD τ).loc main_arg0) : S64x4096x64.Idx → EReal) (ix3 (row t) t' d) := by
  show V m c main_arg0 (((cfg0.win 0).blk t).view.emb (ix3 (0 : Fin 1) t' d)) = _
  rw [V_main_arg0]
  refine congrArg _ (funext fun a => Fin.ext ?_)
  obtain ⟨e0, e1, e2, -⟩ := moving t
  match a with
  | ⟨0, _⟩ => show win0_0.index t (0 : Fin 3) * 1 + 1 * 0 = t.val; omega
  | ⟨1, _⟩ => show win0_0.index t (1 : Fin 3) * 4096 + 1 * t'.val = t'.val; omega
  | ⟨2, _⟩ => show win0_0.index t (2 : Fin 3) * 64 + 1 * d.val = d.val; omega

theorem memory_block (c : Dev nD) (t : Fin cfg0.N) (s e : Fin 64) :
    iblk m c 1 t (ix3 (0 : Fin 1) s e)
      = (m ((c : Thread nD τ).loc main_arg2) : S64x64x64.Idx → EReal) (ix3 (row t) s e) := by
  show V m c main_arg2 (((cfg0.win 1).blk t).view.emb (ix3 (0 : Fin 1) s e)) = _
  rw [V_main_arg2]
  refine congrArg _ (funext fun a => Fin.ext ?_)
  obtain ⟨-, -, -, e0, e1, e2, -⟩ := moving t
  match a with
  | ⟨0, _⟩ => show win0_1.index t (0 : Fin 3) * 1 + 1 * 0 = t.val; omega
  | ⟨1, _⟩ => show win0_1.index t (1 : Fin 3) * 64 + 1 * s.val = s.val; omega
  | ⟨2, _⟩ => show win0_1.index t (2 : Fin 3) * 64 + 1 * e.val = e.val; omega

theorem addr_block (c : Dev nD) (t : Fin cfg0.N) (s : Fin 64) (a : Fin 32) :
    iblk m c 2 t (ix2 s a)
      = unitRow (table (m ((c : Thread nD τ).loc main_arg1) : (⟨2, ![64, 32]⟩ : Shape).Idx → EReal)) s a := by
  show V m c main_v4 (((cfg0.win 2).blk t).view.emb (ix2 s a)) = _
  have he : ((cfg0.win 2).blk t).view.emb (ix2 s a) = ix2 s a := by
    funext ax; apply Fin.ext
    obtain ⟨e0, e1, -⟩ := resident t
    match ax with
    | ⟨0, _⟩ => show win0_2.index t (0 : Fin 2) * 64 + 1 * s.val = s.val; omega
    | ⟨1, _⟩ => show win0_2.index t (1 : Fin 2) * 32 + 1 * a.val = a.val; omega
  rw [he]
  exact addr_at m c s a

theorem wq_block (c : Dev nD) (t : Fin cfg0.N) (a : Fin 32) (d : Fin 64) :
    iblk m c 3 t (ix2 a d) = (m ((c : Thread nD τ).loc main_arg3) : S32x64.Idx → EReal) (ix2 a d) := by
  show V m c main_arg3 (((cfg0.win 3).blk t).view.emb (ix2 a d)) = _
  rw [V_main_arg3]
  refine congrArg _ (funext fun ax => Fin.ext ?_)
  obtain ⟨-, -, e0, e1, -⟩ := resident t
  match ax with
  | ⟨0, _⟩ => show win0_3.index t (0 : Fin 2) * 32 + 1 * a.val = a.val; omega
  | ⟨1, _⟩ => show win0_3.index t (1 : Fin 2) * 64 + 1 * d.val = d.val; omega

theorem wv_block (c : Dev nD) (t : Fin cfg0.N) (e d : Fin 64) :
    iblk m c 4 t (ix2 e d) = (m ((c : Thread nD τ).loc main_arg4) : S64x64.Idx → EReal) (ix2 e d) := by
  show V m c main_arg4 (((cfg0.win 4).blk t).view.emb (ix2 e d)) = _
  rw [V_main_arg4]
  refine congrArg _ (funext fun ax => Fin.ext ?_)
  obtain ⟨-, -, -, -, e0, e1, -⟩ := resident t
  match ax with
  | ⟨0, _⟩ => show win0_4.index t (0 : Fin 2) * 64 + 1 * e.val = e.val; omega
  | ⟨1, _⟩ => show win0_4.index t (1 : Fin 2) * 64 + 1 * d.val = d.val; omega

theorem wg_block (c : Dev nD) (t : Fin cfg0.N) (d : Fin 64) :
    iblk m c 5 t (ix2 (0 : Fin 1) d) = (m ((c : Thread nD τ).loc main_arg5) : S1x64.Idx → EReal) (ix2 (0 : Fin 1) d) := by
  show V m c main_arg5 (((cfg0.win 5).blk t).view.emb (ix2 (0 : Fin 1) d)) = _
  rw [V_main_arg5]
  refine congrArg _ (funext fun ax => Fin.ext ?_)
  obtain ⟨-, -, -, -, -, -, e0, e1, -⟩ := resident t
  match ax with
  | ⟨0, _⟩ => show win0_5.index t (0 : Fin 2) * 1 + 1 * 0 = 0; omega
  | ⟨1, _⟩ => show win0_5.index t (1 : Fin 2) * 64 + 1 * d.val = d.val; omega

theorem bias_block (c : Dev nD) (t : Fin cfg0.N) :
    iblk m c 6 t (ix2 (0 : Fin 1) (0 : Fin 1))
      = (m ((c : Thread nD τ).loc main_arg6) : S1.Idx → EReal) (ix1 (0 : Fin 1)) := by
  show V m c main_v5 (((cfg0.win 6).blk t).view.emb (ix2 (0 : Fin 1) (0 : Fin 1))) = _
  have he : ((cfg0.win 6).blk t).view.emb (ix2 (0 : Fin 1) (0 : Fin 1)) = ix2 (0 : Fin 1) (0 : Fin 1) := by
    funext ax; apply Fin.ext
    obtain ⟨-, -, -, -, -, -, -, -, e0, e1⟩ := resident t
    match ax with
    | ⟨0, _⟩ => show win0_6.index t (0 : Fin 2) * 1 + 1 * 0 = 0; omega
    | ⟨1, _⟩ => show win0_6.index t (1 : Fin 2) * 1 + 1 * 0 = 0; omega
  rw [he]
  exact bias_entry_at m c

/-- An element (0, s, e) of the output window's block at point t is element (t, s, e) of the result array. -/
theorem out_place (t : Fin cfg0.N) (s e : Fin 64) :
    ((cfg0.win 7).blk t).view.emb (ix3 (0 : Fin 1) s e) = ix3 (row t) s e := by
  funext a; apply Fin.ext
  obtain ⟨-, -, -, -, -, -, e0, e1, e2⟩ := moving t
  match a with
  | ⟨0, _⟩ => show win0_7.index t (0 : Fin 3) * 1 + 1 * 0 = t.val; omega
  | ⟨1, _⟩ => show win0_7.index t (1 : Fin 3) * 64 + 1 * s.val = s.val; omega
  | ⟨2, _⟩ => show win0_7.index t (2 : Fin 3) * 64 + 1 * e.val = e.val; omega

/-! ### What a point writes back, the cover, the whole array -/

/-- Point t writes back row t of the specified new memory. -/
theorem flushed_eq (c : Dev nD) (t : Fin cfg0.N) :
    (dats m 0 c).flushed 7 t = ((cfg0.win 7).blk t).view.read (Elt Ideal) (result m c) := by
  rw [Cert.KernelIdeal.Value.flushed7]
  unfold out0_7
  rw [View.canon_unit_zero zero3]
  simp only [View.ld_unit_zero (S := S1x4096x64) zero3, View.ld_unit_zero (S := S1x64x64) zero3,
    View.ld_unit_zero (S := S64x32) zero2, View.ld_unit_zero (S := S32x64) zero2,
    View.ld_unit_zero (S := S64x64) zero2, View.ld_unit_zero (S := S1x64) zero2,
    View.ld_unit_zero (S := S1x1) zero2]
  funext y
  obtain ⟨u, s, e, rfl⟩ : ∃ (u : Fin 1) (s e : Fin 64), y = ix3 u s e := ⟨y 0, y 1, y 2, eq_ix3 y⟩
  obtain rfl : u = 0 := Subsingleton.elim _ _
  show k0_pay1 (k0_pay2 (iblk m c 0 t)) (k0_pay3 (iblk m c 4 t)) (k0_pay4 (iblk m c 0 t) (iblk m c 3 t) (iblk m c 2 t))
      (k0_pay5 (iblk m c 0 t) (iblk m c 5 t)) (iblk m c 6 t) (iblk m c 1 t) (ix3 (0 : Fin 1) s e)
    = result m c (((cfg0.win 7).blk t).view.emb (ix3 (0 : Fin 1) s e))
  refine (block_at (iblk m c 0 t) (iblk m c 1 t) (iblk m c 2 t) (iblk m c 3 t) (iblk m c 4 t) (iblk m c 5 t)
    (iblk m c 6 t) s e).trans ?_
  have hx : slab (iblk m c 0 t) (0 : Fin 1)
      = slab (m ((c : Thread nD τ).loc main_arg0) : S64x4096x64.Idx → EReal) (row t) :=
    funext fun t' => funext fun d => tokens_block m c t t' d
  have hm : slab (iblk m c 1 t) (0 : Fin 1)
      = slab (m ((c : Thread nD τ).loc main_arg2) : S64x64x64.Idx → EReal) (row t) :=
    funext fun s' => funext fun e' => memory_block m c t s' e'
  have hk : table (iblk m c 2 t)
      = unitRow (table (m ((c : Thread nD τ).loc main_arg1) : (⟨2, ![64, 32]⟩ : Shape).Idx → EReal)) :=
    funext fun s' => funext fun a => addr_block m c t s' a
  have hq : table (iblk m c 3 t) = table (m ((c : Thread nD τ).loc main_arg3) : S32x64.Idx → EReal) :=
    funext fun a => funext fun d => wq_block m c t a d
  have hv : table (iblk m c 4 t) = table (m ((c : Thread nD τ).loc main_arg4) : S64x64.Idx → EReal) :=
    funext fun e' => funext fun d => wv_block m c t e' d
  have hg : onlyRow (iblk m c 5 t) = onlyRow (m ((c : Thread nD τ).loc main_arg5) : S1x64.Idx → EReal) :=
    funext fun d => wg_block m c t d
  rw [hx, hm, hk, hq, hv, hg, bias_block m c t, out_place t s e]
  rfl

/-- Every element of the result array is in the block of the point of its batch row. -/
theorem covered (i : S64x64x64.Idx) :
    ∃ t : Fin cfg0.N, (cfg0.win 7).flush t = true ∧ i ∈ ((cfg0.win 7).blk t).view.set := by
  have h0 : (i 0).val < 64 := (i 0).isLt
  have h1 : (i 1).val < 64 := (i 1).isLt
  have h2 : (i 2).val < 64 := (i 2).isLt
  have hN : grid0.N = 64 := N_0
  have ht : (i 0).val < cfg0.N := by show (i 0).val < grid0.N; omega
  refine ⟨⟨(i 0).val, ht⟩, flush0_7 _, ?_⟩
  show i ∈ ((View.whole main_v6).slice (win0_7.rect ⟨(i 0).val, ht⟩)).set
  rw [View.set_slice_whole, Rect.mem_set_unit]
  obtain ⟨-, -, -, -, -, -, e0, e1, e2⟩ := moving ⟨(i 0).val, ht⟩
  have e0' : win0_7.index ⟨(i 0).val, ht⟩ (0 : Fin 3) = (i 0).val := e0
  intro a
  match a with
  | ⟨0, _⟩ =>
    show win0_7.index ⟨(i 0).val, ht⟩ (0 : Fin 3) * 1 ≤ (i 0).val
      ∧ (i 0).val < win0_7.index ⟨(i 0).val, ht⟩ (0 : Fin 3) * 1 + 1
    omega
  | ⟨1, _⟩ =>
    show win0_7.index ⟨(i 0).val, ht⟩ (1 : Fin 3) * 64 ≤ (i 1).val
      ∧ (i 1).val < win0_7.index ⟨(i 0).val, ht⟩ (1 : Fin 3) * 64 + 64
    omega
  | ⟨2, _⟩ =>
    show win0_7.index ⟨(i 0).val, ht⟩ (2 : Fin 3) * 64 ≤ (i 2).val
      ∧ (i 2).val < win0_7.index ⟨(i 0).val, ht⟩ (2 : Fin 3) * 64 + 64
    omega

/-- The result array ends holding the specified new memory, whole. -/
theorem final (c : Dev nD) : (dats m 0 c).arrAt 7 cfg0.N = result m c :=
  (dats m 0 c).arrAt_eq_of_cover 7 (result m c) (fun t _ => flushed_eq m c t) covered

/-- The kernel's run: the result array at the specified function of the arguments, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.Value.run_blocks m ρ)

end Cert.SlotWrite.Ker

end
-- ==== Proof.lean ====
/-
  The certificate of the slot-memory write: kernel against reference.

  The kernel takes one grid point per batch row. For its row it projects every token to an address query and
  scales it to unit length, scores it against the unit-length slot addresses, takes the softmax of the scores over
  the slots and scales it by the token's logistic write gate; it then gives every slot the total of these weights and
  the weighted sum of the tokens' value projections, and moves the slot's stored row towards the weighted mean by the
  fraction 1 − e^{−w}. The reference computes the same quantities for all batch rows at once with batched
  contractions.

  At the ideal instance both results are ONE function of the seven argument arrays, `newMemory` (SlotArrays, over the
  mathematics of SlotSpec), index by index:
  * the reference's stages are read one operation at a time (RefScores, RefGate, RefSlots): its contractions and sums
    are plain finite sums over the contracted coordinate, its one maximum is a fold of max from the word of −∞ —
    flooring that fold again by −∞, as the reference's softmax does, changes nothing — and its logistic, spelt
    1 / (1 + e^{−z}) with the literal 1.0, is the kernel's single logistic operation;
  * the kernel body's two payloads are compositions of stages (KerStages) each of which is the matching function of
    SlotSpec of its operands (KerIndex, KerBody): a matrix product into a zero accumulator is the same finite sum, a
    change of float format is the identity, a reduction cast to a column and broadcast back is the row's sum or
    maximum, and zero minus w is −w;
  * the addresses reach the kernel already scaled by the host, by the very operations the reference applies
    (KerHost), and the 64 rows the grid points write back cover the result array (KerBlocks).
  No step moves a factor across a sum or cancels anything, so the two sides agree on all extended reals and the
  finiteness of the inputs is never used. The three frames are the generated ones; the idealization rewrote no
  operation of the kernel, so there is nothing to preserve.
-/
import proofs.«174082_j2714419331664_1_alg».proof.Defs
import proofs.«174082_j2714419331664_1_alg».proof.Proof.Gen.Kernel
import proofs.«174082_j2714419331664_1_alg».proof.Proof.Gen.Kernel.Skeleton
import proofs.«174082_j2714419331664_1_alg».proof.Proof.Gen.Kernel.Launch
import proofs.«174082_j2714419331664_1_alg».proof.Proof.Gen.Kernel.Points
import proofs.«174082_j2714419331664_1_alg».proof.Proof.Gen.Kernel.Frame
import proofs.«174082_j2714419331664_1_alg».proof.Proof.Gen.KernelIdeal
import proofs.«174082_j2714419331664_1_alg».proof.Proof.Gen.KernelIdeal.Skeleton
import proofs.«174082_j2714419331664_1_alg».proof.Proof.Gen.KernelIdeal.Launch
import proofs.«174082_j2714419331664_1_alg».proof.Proof.Gen.KernelIdeal.Points
import proofs.«174082_j2714419331664_1_alg».proof.Proof.Gen.KernelIdeal.Frame
import proofs.«174082_j2714419331664_1_alg».proof.Proof.Gen.ReferenceIdeal
import proofs.«174082_j2714419331664_1_alg».proof.Proof.Gen.Pre_finite_inputs
import proofs.«174082_j2714419331664_1_alg».proof.Proof.Gen.KernelIdeal.Value
import proofs.«174082_j2714419331664_1_alg».proof.Proof.Gen.ReferenceIdeal.Run
import proofs.«174082_j2714419331664_1_alg».proof.Proof.Gen.ReferenceIdeal.Read
import proofs.«174082_j2714419331664_1_alg».proof.Proof.RefSlots
import proofs.«174082_j2714419331664_1_alg».proof.Proof.KerBlocks
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the specified new memory of the arguments. -/
theorem algebraic : Cert.algebraic_KernelIdeal_ReferenceIdeal := by
  intro m ρ m' ρ' _ hagree
  refine ⟨fun c => Cert.SlotWrite.Ker.result m c, Cert.SlotWrite.Ker.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v56_eq, (hagree c).1, (hagree c).2.1, (hagree c).2.2.1, (hagree c).2.2.2.1,
    (hagree c).2.2.2.2.1, (hagree c).2.2.2.2.2.1, (hagree c).2.2.2.2.2.2]
  exact Cert.SlotWrite.Ref.result_eq _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
